-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S48x128 : Shape := ⟨2, ![48, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x1 .f32) (main_arg14 : FVec F S1 .f32) (main_v48 : IVec S_ 1) (main_v49 : FVec F S48x128 .f32) (main_v50 : FVec F S48x128 .f32) : IVec S_ 1 :=
  let main_v51 : IVec S48x128 1 := cmpf .olt main_v49 main_v50
  let main_c_19 : IVec S_ 1 := constantI S_ 1 1#1
  let main_v52 : IVec S_ 1 := (fun x v => Host.reduce IntOp.andi x v reducesTo_S48x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S48x48 .f32) (main_arg9 : FVec F S48 .f32) (main_arg10 : FVec F S48x48 .f32) (main_arg11 : FVec F S48x128 .f32) (main_arg12 : FVec F S128 .f32) (main_arg13 : FVec F S128x1 .f32) (main_arg14 : FVec F S1 .f32) (main_v33 : IVec S_ 1) : IVec S_ 1 :=
  let main_v34 : FVec F S48x48 .f32 := Host.absf main_arg8
  let main_cst_12 : FVec F S_ .f32 := constant S_ .f32 0x7F800000#32
  let main_v35 : FVec F S48x48 .f32 := broadcastInDim S48x48 ![] bcast_S_S48x48 main_cst_12
  let main_v36 : IVec S48x48 1 := cmpf .olt main_v34 main_v35
  let main_c_13 : IVec S_ 1 := constantI S_ 1 1#1
  let main_v37 : IVec S_ 1 := (fun x v => Host.reduce IntOp.andi x v reducesTo_S48x48_S_d0_1 h_S_) main_v36 main_c_13
  let main_v38 : IVec S_ 1 := andi main_v33 main_v37
  let main_v39 : FVec F S48 .f32 := Host.absf main_arg9
  let main_cst_14 : FVec F S_ .f32 := constant S_ .f32 0x7F800000#32
  let main_v40 : FVec F S48 .f32 := broadcastInDim S48 ![] bcast_S_S48 main_cst_14
  let main_v41 : IVec S48 1 := cmpf .olt main_v39 main_v40
  let main_c_15 : IVec S_ 1 := constantI S_ 1 1#1
  let main_v42 : IVec S_ 1 := (fun x v => Host.reduce IntOp.andi x v reducesTo_S48_S_d0 h_S_) main_v41 main_c_15
  let main_v43 : IVec S_ 1 := andi main_v38 main_v42
  let main_v44 : FVec F S48x48 .f32 := Host.absf main_arg10
  let main_cst_16 : FVec F S_ .f32 := constant S_ .f32 0x7F800000#32
  let main_v45 : FVec F S48x48 .f32 := broadcastInDim S48x48 ![] bcast_S_S48x48 main_cst_16
  let main_v46 : IVec S48x48 1 := cmpf .olt main_v44 main_v45
  let main_c_17 : IVec S_ 1 := constantI S_ 1 1#1
  let main_v47 : IVec S_ 1 := (fun x v => Host.reduce IntOp.andi x v reducesTo_S48x48_S_d0_1 h_S_) main_v46 main_c_17
  let main_v48 : IVec S_ 1 := andi main_v43 main_v47
  let main_v49 : FVec F S48x128 .f32 := Host.absf main_arg11
  let main_cst_18 : FVec F S_ .f32 := constant S_ .f32 0x7F800000#32
  let main_v50 : FVec F S48x128 .f32 := broadcastInDim S48x128 ![] bcast_S_S48x128 main_cst_18
  fn_part3 (F := F) main_arg12 main_arg13 main_arg14 main_v48 main_v49 main_v50

def fn_part1 {F : FTy → Type} [FloatOps F] (main_arg5 : FVec F S48x48 .f32) (main_arg6 : FVec F S48 .f32) (main_arg7 : FVec F S48x48 .f32) (main_arg8 : FVec F S48x48 .f32) (main_arg9 : FVec F S48 .f32) (main_arg10 : FVec F S48x48 .f32) (main_arg11 : FVec F S48x128 .f32) (main_arg12 : FVec F S128 .f32) (main_arg13 : FVec F S128x1 .f32) (main_arg14 : FVec F S1 .f32) (main_v13 : IVec S_ 1) (main_v16 : IVec S48x48 1) : IVec S_ 1 :=
  let main_c_5 : IVec S_ 1 := constantI S_ 1 1#1
  let main_v17 : IVec S_ 1 := (fun x v => Host.reduce IntOp.andi x v reducesTo_S48x48_S_d0_1 h_S_) main_v16 main_c_5
  let main_v18 : IVec S_ 1 := andi main_v13 main_v17
  let main_v19 : FVec F S48x48 .f32 := Host.absf main_arg5
  let main_cst_6 : FVec F S_ .f32 := constant S_ .f32 0x7F800000#32
  let main_v20 : FVec F S48x48 .f32 := broadcastInDim S48x48 ![] bcast_S_S48x48 main_cst_6
  let main_v21 : IVec S48x48 1 := cmpf .olt main_v19 main_v20
  let main_c_7 : IVec S_ 1 := constantI S_ 1 1#1
  let main_v22 : IVec S_ 1 := (fun x v => Host.reduce IntOp.andi x v reducesTo_S48x48_S_d0_1 h_S_) main_v21 main_c_7
  let main_v23 : IVec S_ 1 := andi main_v18 main_v22
  let main_v24 : FVec F S48 .f32 := Host.absf main_arg6
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48x48 .f32 := Host.absf main_arg7
  let main_cst_10 : FVec F S_ .f32 := constant S_ .f32 0x7F800000#32
  let main_v30 : FVec F S48x48 .f32 := broadcastInDim S48x48 ![] bcast_S_S48x48 main_cst_10
  let main_v31 : IVec S48x48 1 := cmpf .olt main_v29 main_v30
  let main_c_11 : IVec S_ 1 := constantI S_ 1 1#1
  let main_v32 : IVec S_ 1 := (fun x v => Host.reduce IntOp.andi x v reducesTo_S48x48_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x48 .f32) (main_arg1 : IVec S2x1600000 32) (main_arg2 : FVec F S48x48 .f32) (main_arg3 : FVec F S48 .f32) (main_arg4 : FVec F S48x48 .f32) (main_arg5 : FVec F S48x48 .f32) (main_arg6 : FVec F S48 .f32) (main_arg7 : FVec F S48x48 .f32) (main_arg8 : FVec F S48x48 .f32) (main_arg9 : FVec F S48 .f32) (main_arg10 : FVec F S48x48 .f32) (main_arg11 : FVec F S48x128 .f32) (main_arg12 : FVec F S128 .f32) (main_arg13 : FVec F S128x1 .f32) (main_arg14 : FVec F S1 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x48 .f32 := Host.absf main_arg2
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x48 .f32 := Host.absf main_arg4
  let main_cst_4 : FVec F S_ .f32 := constant S_ .f32 0x7F800000#32
  let main_v15 : FVec F S48x48 .f32 := broadcastInDim S48x48 ![] bcast_S_S48x48 main_cst_4
  let main_v16 : IVec S48x48 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S48x128 : Shape := ⟨2, ![48, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x48 : Shape := ⟨2, ![1, 48]⟩
abbrev S5000x48 : Shape := ⟨2, ![5000, 48]⟩
abbrev S1x128 : Shape := ⟨2, ![1, 128]⟩
abbrev S1x1 : Shape := ⟨2, ![1, 1]⟩
abbrev S100000x1 : Shape := ⟨2, ![100000, 1]⟩
abbrev S5000x1 : Shape := ⟨2, ![5000, 1]⟩
abbrev S5000x128 : Shape := ⟨2, ![5000, 128]⟩

abbrev nBuf : Space → Nat
  | .hbm => 66
  | .vmem => 31
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48, .f32⟩
  | .hbm, ⟨4, _⟩ => ⟨S48x48, .f32⟩
  | .hbm, ⟨5, _⟩ => ⟨S48x48, .f32⟩
  | .hbm, ⟨6, _⟩ => ⟨S48, .f32⟩
  | .hbm, ⟨7, _⟩ => ⟨S48x48, .f32⟩
  | .hbm, ⟨8, _⟩ => ⟨S48x48, .f32⟩
  | .hbm, ⟨9, _⟩ => ⟨S48, .f32⟩
  | .hbm, ⟨10, _⟩ => ⟨S48x48, .f32⟩
  | .hbm, ⟨11, _⟩ => ⟨S48x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x48, .f32⟩
  | .hbm, ⟨28, _⟩ => ⟨S_, .f32⟩
  | .hbm, ⟨29, _⟩ => ⟨S100000x48, .f32⟩
  | .hbm, ⟨30, _⟩ => ⟨S1600000x1, .i32⟩
  | .hbm, ⟨31, _⟩ => ⟨S100000x48, .f32⟩
  | .hbm, ⟨32, _⟩ => ⟨S1x48, .f32⟩
  | .hbm, ⟨33, _⟩ => ⟨S100000x48, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x48, .f32⟩
  | .hbm, ⟨43, _⟩ => ⟨S_, .f32⟩
  | .hbm, ⟨44, _⟩ => ⟨S100000x48, .f32⟩
  | .hbm, ⟨45, _⟩ => ⟨S1600000x1, .i32⟩
  | .hbm, ⟨46, _⟩ => ⟨S100000x48, .f32⟩
  | .hbm, ⟨47, _⟩ => ⟨S1x48, .f32⟩
  | .hbm, ⟨48, _⟩ => ⟨S100000x48, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x48, .f32⟩
  | .hbm, ⟨58, _⟩ => ⟨S_, .f32⟩
  | .hbm, ⟨59, _⟩ => ⟨S100000x48, .f32⟩
  | .hbm, ⟨60, _⟩ => ⟨S1600000x1, .i32⟩
  | .hbm, ⟨61, _⟩ => ⟨S100000x48, .f32⟩
  | .hbm, ⟨62, _⟩ => ⟨S1x48, .f32⟩
  | .hbm, ⟨63, _⟩ => ⟨S1x128, .f32⟩
  | .hbm, ⟨64, _⟩ => ⟨S1x1, .f32⟩
  | .hbm, ⟨65, _⟩ => ⟨S100000x1, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S48x48, .f32⟩
  | .local _ .vmem, ⟨5, _⟩ => ⟨S1x48, .f32⟩
  | .local _ .vmem, ⟨6, _⟩ => ⟨S48x48, .f32⟩
  | .local _ .vmem, ⟨7, _⟩ => ⟨S5000x48, .f32⟩
  | .local _ .vmem, ⟨8, _⟩ => ⟨S5000x48, .f32⟩
  | .local _ .vmem, ⟨9, _⟩ => ⟨S5000x48, .f32⟩
  | .local _ .vmem, ⟨10, _⟩ => ⟨S5000x48, .f32⟩
  | .local _ .vmem, ⟨11, _⟩ => ⟨S5000x48, .f32⟩
  | .local _ .vmem, ⟨12, _⟩ => ⟨S5000x48, .f32⟩
  | .local _ .vmem, ⟨13, _⟩ => ⟨S48x48, .f32⟩
  | .local _ .vmem, ⟨14, _⟩ => ⟨S1x48, .f32⟩
  | .local _ .vmem, ⟨15, _⟩ => ⟨S48x48, .f32⟩
  | .local _ .vmem, ⟨16, _⟩ => ⟨S5000x48, .f32⟩
  | .local _ .vmem, ⟨17, _⟩ => ⟨S5000x48, .f32⟩
  | .local _ .vmem, ⟨18, _⟩ => ⟨S5000x48, .f32⟩
  | .local _ .vmem, ⟨19, _⟩ => ⟨S5000x48, .f32⟩
  | .local _ .vmem, ⟨20, _⟩ => ⟨S5000x48, .f32⟩
  | .local _ .vmem, ⟨21, _⟩ => ⟨S5000x48, .f32⟩
  | .local _ .vmem, ⟨22, _⟩ => ⟨S48x48, .f32⟩
  | .local _ .vmem, ⟨23, _⟩ => ⟨S1x48, .f32⟩
  | .local _ .vmem, ⟨24, _⟩ => ⟨S48x48, .f32⟩
  | .local _ .vmem, ⟨25, _⟩ => ⟨S48x128, .f32⟩
  | .local _ .vmem, ⟨26, _⟩ => ⟨S1x128, .f32⟩
  | .local _ .vmem, ⟨27, _⟩ => ⟨S128x1, .f32⟩
  | .local _ .vmem, ⟨28, _⟩ => ⟨S1x1, .f32⟩
  | .local _ .vmem, ⟨29, _⟩ => ⟨S5000x1, .f32⟩
  | .local _ .vmem, ⟨30, _⟩ => ⟨S5000x1, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem9_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S48x48 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x48 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S48x48 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S48x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  shapeCasts_S48_S1x48 : S48.ShapeCasts S1x48
  inb_S5000x48_S5000x48_0_0 : ∀ a, (![0, 0] : Fin 2 → Nat) a + S5000x48.size a ≤ S5000x48.size a
  h_S5000x48 : 0 < S5000x48.numel
  bitsLt_bf16_f32 : FTy.bits .bf16 < FTy.bits .f32
  shapeCasts_S5000x48_S5000x48 : S5000x48.ShapeCasts S5000x48
  inb_S48x48_S48x48_0_0 : ∀ a, (![0, 0] : Fin 2 → Nat) a + S48x48.size a ≤ S48x48.size a
  h_S48x48 : 0 < S48x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  shapeCasts_S128_S1x128 : S128.ShapeCasts S1x128
  shapeCasts_S1_S1x1 : S1.ShapeCasts S1x1
  inb_S48x128_S48x128_0_0 : ∀ a, (![0, 0] : Fin 2 → Nat) a + S48x128.size a ≤ S48x128.size a
  h_S48x128 : 0 < S48x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x48_S5000x48_1_0_0_1_n_n_wf : DotDims.WF S5000x48 S48x48 S5000x48 [1] [0] [0] [1] [] []
  dot_S5000x48_S48x128_S5000x128_1_0_0_1_n_n_wf : DotDims.WF S5000x48 S48x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x48.size a ≤ S48x48.size a
  hwx0_2 : ∀ i : grid0.Coords, EltTy.bits .f32 = 32 ∨ (Rect.block (s := S48x48) S48x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x48.size a ≤ S1x48.size a
  hwx0_3 : ∀ i : grid0.Coords, EltTy.bits .f32 = 32 ∨ (Rect.block (s := S1x48) S1x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x48.size a ≤ S48x48.size a
  hwx0_4 : ∀ i : grid0.Coords, EltTy.bits .f32 = 32 ∨ (Rect.block (s := S48x48) S48x48.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x48.size a ≤ S100000x48.size a
  hwx0_5 : ∀ i : grid0.Coords, EltTy.bits .f32 = 32 ∨ (Rect.block (s := S100000x48) S5000x48.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x48.size a ≤ S100000x48.size a
  hwx1_1 : ∀ i : grid1.Coords, EltTy.bits .f32 = 32 ∨ (Rect.block (s := S100000x48) S5000x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x48.size a ≤ S48x48.size a
  hwx1_2 : ∀ i : grid1.Coords, EltTy.bits .f32 = 32 ∨ (Rect.block (s := S48x48) S48x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x48.size a ≤ S1x48.size a
  hwx1_3 : ∀ i : grid1.Coords, EltTy.bits .f32 = 32 ∨ (Rect.block (s := S1x48) S1x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S48x48.size a ≤ S48x48.size a
  hwx1_4 : ∀ i : grid1.Coords, EltTy.bits .f32 = 32 ∨ (Rect.block (s := S48x48) S48x48.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x48.size a ≤ S100000x48.size a
  hwx1_5 : ∀ i : grid1.Coords, EltTy.bits .f32 = 32 ∨ (Rect.block (s := S100000x48) S5000x48.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x48.size a ≤ S100000x48.size a
  hwx2_0 : ∀ i : grid2.Coords, EltTy.bits .f32 = 32 ∨ (Rect.block (s := S100000x48) S5000x48.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x48.size a ≤ S100000x48.size a
  hwx2_1 : ∀ i : grid2.Coords, EltTy.bits .f32 = 32 ∨ (Rect.block (s := S100000x48) S5000x48.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S48x48.size a ≤ S48x48.size a
  hwx2_2 : ∀ i : grid2.Coords, EltTy.bits .f32 = 32 ∨ (Rect.block (s := S48x48) S48x48.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x48.size a ≤ S1x48.size a
  hwx2_3 : ∀ i : grid2.Coords, EltTy.bits .f32 = 32 ∨ (Rect.block (s := S1x48) S1x48.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S48x48.size a ≤ S48x48.size a
  hwx2_4 : ∀ i : grid2.Coords, EltTy.bits .f32 = 32 ∨ (Rect.block (s := S48x48) S48x48.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S48x128.size a ≤ S48x128.size a
  hwx2_5 : ∀ i : grid2.Coords, EltTy.bits .f32 = 32 ∨ (Rect.block (s := S48x128) S48x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S100000x1.size a
  hwx2_9 : ∀ i : grid2.Coords, EltTy.bits .f32 = 32 ∨ (Rect.block (s := S100000x1) S5000x1.size (cc2_transform_9 i) (hinb2_9 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x48_S5000x48_1_0_0_1_n_n : DotDims S5000x48 S48x48 S5000x48 where
  lhsContracting := [1]
  rhsContracting := [0]
  lhsNonContracting := [0]
  rhsNonContracting := [1]
  lhsBatch := []
  rhsBatch := []
  wf := dot_S5000x48_S48x48_S5000x48_1_0_0_1_n_n_wf
def dot_S5000x48_S48x128_S5000x128_1_0_0_1_n_n : DotDims S5000x48 S48x128 S5000x128 where
  lhsContracting := [1]
  rhsContracting := [0]
  lhsNonContracting := [0]
  rhsNonContracting := [1]
  lhsBatch := []
  rhsBatch := []
  wf := dot_S5000x48_S48x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S48x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x48.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S48x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S48x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x48.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x48.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S48x48.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x48.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S48x48.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S48x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v41) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S48x128 : Shape := ⟨2, ![48, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x48 : Shape := ⟨2, ![1, 48]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48, .f32⟩
  | .hbm, ⟨4, _⟩ => ⟨S48x48, .f32⟩
  | .hbm, ⟨5, _⟩ => ⟨S48x48, .f32⟩
  | .hbm, ⟨6, _⟩ => ⟨S48, .f32⟩
  | .hbm, ⟨7, _⟩ => ⟨S48x48, .f32⟩
  | .hbm, ⟨8, _⟩ => ⟨S48x48, .f32⟩
  | .hbm, ⟨9, _⟩ => ⟨S48, .f32⟩
  | .hbm, ⟨10, _⟩ => ⟨S48x48, .f32⟩
  | .hbm, ⟨11, _⟩ => ⟨S48x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x48, .f32⟩
  | .hbm, ⟨28, _⟩ => ⟨S_, .f32⟩
  | .hbm, ⟨29, _⟩ => ⟨S100000x48, .f32⟩
  | .hbm, ⟨30, _⟩ => ⟨S1600000x1, .i32⟩
  | .hbm, ⟨31, _⟩ => ⟨S100000x48, .f32⟩
  | .hbm, ⟨32, _⟩ => ⟨S100000x48, .f32⟩
  | .hbm, ⟨33, _⟩ => ⟨S1x48, .f32⟩
  | .hbm, ⟨34, _⟩ => ⟨S100000x48, .f32⟩
  | .hbm, ⟨35, _⟩ => ⟨S100000x48, .f32⟩
  | .hbm, ⟨36, _⟩ => ⟨S100000x48, .f32⟩
  | .hbm, ⟨37, _⟩ => ⟨S100000x48, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x48, .f32⟩
  | .hbm, ⟨47, _⟩ => ⟨S_, .f32⟩
  | .hbm, ⟨48, _⟩ => ⟨S100000x48, .f32⟩
  | .hbm, ⟨49, _⟩ => ⟨S1600000x1, .i32⟩
  | .hbm, ⟨50, _⟩ => ⟨S100000x48, .f32⟩
  | .hbm, ⟨51, _⟩ => ⟨S100000x48, .f32⟩
  | .hbm, ⟨52, _⟩ => ⟨S1x48, .f32⟩
  | .hbm, ⟨53, _⟩ => ⟨S100000x48, .f32⟩
  | .hbm, ⟨54, _⟩ => ⟨S100000x48, .f32⟩
  | .hbm, ⟨55, _⟩ => ⟨S100000x48, .f32⟩
  | .hbm, ⟨56, _⟩ => ⟨S100000x48, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x48, .f32⟩
  | .hbm, ⟨66, _⟩ => ⟨S_, .f32⟩
  | .hbm, ⟨67, _⟩ => ⟨S100000x48, .f32⟩
  | .hbm, ⟨68, _⟩ => ⟨S1600000x1, .i32⟩
  | .hbm, ⟨69, _⟩ => ⟨S100000x48, .f32⟩
  | .hbm, ⟨70, _⟩ => ⟨S100000x48, .f32⟩
  | .hbm, ⟨71, _⟩ => ⟨S1x48, .f32⟩
  | .hbm, ⟨72, _⟩ => ⟨S100000x48, .f32⟩
  | .hbm, ⟨73, _⟩ => ⟨S100000x48, .f32⟩
  | .hbm, ⟨74, _⟩ => ⟨S100000x48, .f32⟩
  | .hbm, ⟨75, _⟩ => ⟨S100000x48, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x1, .f32⟩
  | .hbm, ⟨84, _⟩ => ⟨S1x1, .f32⟩
  | .hbm, ⟨85, _⟩ => ⟨S100000x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call0_cst : Ref sig .tc := ⟨.hbm, 80, rfl⟩
abbrev main_call0_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x48_S100000x48_1_0_0_1_n_n_wf : DotDims.WF S100000x48 S48x48 S100000x48 [1] [0] [0] [1] [] []
  dot_S100000x48_S48x128_S100000x128_1_0_0_1_n_n_wf : DotDims.WF S100000x48 S48x128 S100000x128 [1] [0] [0] [1] [] []
  dot_S100000x128_S128x1_S100000x1_1_0_0_1_n_n_wf : DotDims.WF S100000x128 S128x1 S100000x1 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The kernel program's run with its result named.

  The program is three kernel regions among three stretches of host operations. Its run is followed boundary by
  boundary: the buffers' contents after the first stretch, after the first region (its output array at what the
  write-backs leave, everything else as entered), after the second stretch, and so on; `W6` names the contents after
  the last region. Every weakly fair execution terminates without a fault and ends with every unscoped buffer at `W6`:
  in particular the result buffer, and the fifteen argument arrays, which no segment writes, as launched.
-/
import proofs.«155833_j14998025797672_1_alg».proof.Proof.Gen.KernelIdeal.Frame

set_option maxRecDepth 16384

noncomputable section

namespace Cert.Gnn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_W6 : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.Gnn.Ker

end
-- ==== Proof.Agg.lean ====
/-
  The neighbourhood sum, as one function.

  From the `[2, E]` edge array take its first row (the edges' sources) and its second row (their targets). The rows of
  the node features are gathered along the sources — a negative source index `s` wrapped to `s + N` first — and
  scatter-added into a zero array along the targets: entry `(v, j)` of the result is the sum of `h (src e, j)` over
  the edges `e` whose target is `v`. Both programs apply exactly this operation three times; nothing in the
  certificate looks inside the gather or the scatter.
-/
import proofs.«155833_j14998025797672_1_alg».proof.Proof.Gen.KernelIdeal
import Idealize.ShloMosaic.PureOps.Ideal

noncomputable section

namespace Cert.Gnn.Ker

open Cert.KernelIdeal Cert.KernelIdeal.Facts₀ Idealize.ShloMosaic

/-- The edges' sources: row 0 of the edge array. -/
def srcK (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' targets: row 1 of the edge array. -/
def dstK (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- Gather along the sources `s` (negative indices wrapped), scatter-add along the targets `d` into zeros. -/
def aggSD (s d : (⟨S1600000, .i32⟩ : BufTy).Contents (Elt Ideal)) (h : (⟨S100000x48, .f32⟩ : BufTy).Contents (Elt Ideal)) :
    (⟨S100000x48, .f32⟩ : BufTy).Contents (Elt Ideal) :=
  Host.scatterAdd (F := Ideal) (φ := .f32) scatter_S100000x48_S1600000x1_S1600000x48_1_0_0_1
    (broadcastInDim S100000x48 ![] bcast_S_S100000x48 (constant (F := Ideal) S_ .f32 0x00000000#32))
    (broadcastInDim S1600000x1 ![0] bcast_S1600000_S1600000x1_0 d)
    (Host.gather gather_S100000x48_S1600000x1_S1600000x48_1_0_n_n_0_1_148 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The neighbourhood sum of the features `h` along the edges `e`. -/
def aggK (e : (⟨S2x1600000, .i32⟩ : BufTy).Contents (Elt Ideal)) (h : (⟨S100000x48, .f32⟩ : BufTy).Contents (Elt Ideal)) :
    (⟨S100000x48, .f32⟩ : BufTy).Contents (Elt Ideal) :=
  aggSD (srcK e) (dstK e) h

end Cert.Gnn.Ker

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Spec.lean ====
/-
  The network both programs compute, entry by entry, on the extended reals.

  A graph-convolution layer takes node features `h` and their neighbourhood sums `a` (both `[M, 48]`), two
  `48 × 48` weight matrices and a bias row, and returns at entry `(p, q)`
      (Σₖ a(p,k) · Wr(k,q) + Σₖ h(p,k) · Wk(k,q)) + b(q).
  The output head applies a third layer, a `48 → 128` affine map followed by `max(·, 0)`, a `128 → 1` affine map,
  and the logistic function `1 / (1 + e⁻ˣ)`. Every entry of a layer depends on ONE row `p` of `h` and of `a` only,
  so the same formula describes a block of rows (`M` the block's height) and the whole array (`M` the number of
  nodes): that is what lets a row-blocked evaluation be compared with a whole-array one.

  The neighbourhood sum itself (a gather of rows along the edges' sources followed by a scatter-add into the edges'
  targets) is a parameter `agg` here: both programs apply the same operation, and nothing below looks inside it.

  The one algebraic fact used between the two programs is that a sum of three extended reals may be regrouped,
  `(x + y) + z = (x + z) + y`; it holds at the infinities too, so no finiteness of the inputs is needed.
-/
import Mathlib
import Idealize.ShloMosaic.Lib.ValueIdx
import Idealize.ShloMosaic.PureOps.Ideal

noncomputable section

namespace Cert.Gnn

open Idealize.ShloMosaic Idealize.ShloMosaic.ValueIdx

/-- An `[M, 48]` array of extended reals. -/
abbrev Feat (M : Nat) := (⟨2, ![M, 48]⟩ : Shape).Idx → EReal
/-- A `[K, N]` matrix of extended reals. -/
abbrev Mat (K N : Nat) := (⟨2, ![K, N]⟩ : Shape).Idx → EReal

/-- One graph-convolution layer at entry `(p, q)`: the neighbourhood sum through `Wr`, plus the node's own
    features through `Wk`, plus the bias. -/
def conv {M : Nat} (h a : Feat M) (Wr Wk : Mat 48 48) (b : Fin 48 → EReal) (p : Fin M) (q : Fin 48) : EReal :=
  (∑ k : Fin 48, a (ix2 p k) * Wr (ix2 k q) + ∑ k : Fin 48, h (ix2 p k) * Wk (ix2 k q)) + b q

/-- The layer as an array. -/
def convA {M : Nat} (h a : Feat M) (Wr Wk : Mat 48 48) (b : Fin 48 → EReal) : Feat M :=
  fun i => conv h a Wr Wk b (i 0) (i 1)

theorem convA_ix2 {M : Nat} (h a : Feat M) (Wr Wk : Mat 48 48) (b : Fin 48 → EReal) (p : Fin M) (q : Fin 48) :
    convA h a Wr Wk b (ix2 p q) = conv h a Wr Wk b p q := rfl

/-- The same layer with the bias added BEFORE the node's own term: the other grouping of the three summands. -/
theorem conv_regroup {M : Nat} (h a : Feat M) (Wr Wk : Mat 48 48) (b : Fin 48 → EReal) (p : Fin M) (q : Fin 48) :
    (∑ k : Fin 48, a (ix2 p k) * Wr (ix2 k q) + b q) + ∑ k : Fin 48, h (ix2 p k) * Wk (ix2 k q)
      = conv h a Wr Wk b p q := by
  unfold conv
  exact add_right_comm _ _ _

/-- The hidden unit `k` of node `p`: the third layer's row through `m0W`, plus the bias, clipped below at zero.
    The zero is kept as the float word both programs spell; it is never evaluated. -/
def hidden {M : Nat} (h a : Feat M) (Wr Wk : Mat 48 48) (b : Fin 48 → EReal) (m0W : Mat 48 128) (m0b : Fin 128 → EReal)
    (p : Fin M) (k : Fin 128) : EReal :=
  max (∑ j : Fin 48, conv h a Wr Wk b p j * m0W (ix2 j k) + m0b k) (Ideal.ofBits .f32 0x00000000#32)

/-- The output head at entry `(p, q)` (`q` ranges over the one output column): the logistic function of the
    hidden row through `m1W` plus the bias. -/
def head {M : Nat} (h a : Feat M) (Wr Wk : Mat 48 48) (b : Fin 48 → EReal) (m0W : Mat 48 128) (m0b : Fin 128 → EReal)
    (m1W : Mat 128 1) (m1b : Fin 1 → EReal) (p : Fin M) (q : Fin 1) : EReal :=
  Ideal.logistic (∑ k : Fin 128, hidden h a Wr Wk b m0W m0b p k * m1W (ix2 k q) + m1b q)

/-- The head as an array. -/
def headA {M : Nat} (h a : Feat M) (Wr Wk : Mat 48 48) (b : Fin 48 → EReal) (m0W : Mat 48 128) (m0b : Fin 128 → EReal)
    (m1W : Mat 128 1) (m1b : Fin 1 → EReal) : (⟨2, ![M, 1]⟩ : Shape).Idx → EReal :=
  fun i => head h a Wr Wk b m0W m0b m1W m1b (i 0) (i 1)

/-- The whole network: two layers, then the head, each fed the previous features and their neighbourhood sums. -/
def net {M : Nat} (agg : Feat M → Feat M) (x : Feat M)
    (Wr0 Wk0 : Mat 48 48) (b0 : Fin 48 → EReal) (Wr1 Wk1 : Mat 48 48) (b1 : Fin 48 → EReal)
    (Wr2 Wk2 : Mat 48 48) (b2 : Fin 48 → EReal) (m0W : Mat 48 128) (m0b : Fin 128 → EReal)
    (m1W : Mat 128 1) (m1b : Fin 1 → EReal) : (⟨2, ![M, 1]⟩ : Shape).Idx → EReal :=
  headA (convA (convA x (agg x) Wr0 Wk0 b0) (agg (convA x (agg x) Wr0 Wk0 b0)) Wr1 Wk1 b1)
    (agg (convA (convA x (agg x) Wr0 Wk0 b0) (agg (convA x (agg x) Wr0 Wk0 b0)) Wr1 Wk1 b1))
    Wr2 Wk2 b2 m0W m0b m1W m1b

/-- The float word `0x3F800000` denotes the real number one. -/
theorem ofBits_one : Ideal.ofBits .f32 0x3F800000#32 = 1 := by
  simp [Ideal.ofBits, Ideal.ieee, -EReal.coe_mul]; norm_num

/-- The logistic function written out with the float word for one, as a host program spells it:
    `1 / (1 + e⁻ˣ)`. -/
theorem logistic_spelt (x : EReal) :
    Ideal.div (Ideal.ofBits .f32 0x3F800000#32) (Ideal.ofBits .f32 0x3F800000#32 + Ideal.exp (-x)) = Ideal.logistic x := by
  rw [ofBits_one]; rfl

end Cert.Gnn

end
-- ==== Proof.Pay.lean ====
/-
  What each kernel body computes from the blocks it loads, entry by entry, on the extended reals.

  A body loads a block of 5000 rows of the node features and of their neighbourhood sums, the layer's two weight
  matrices and its bias row, and stores the two matrix products added together plus the bias row repeated down the
  block. Narrowing a value to a shorter float format and back is the identity on the extended reals, and a matrix
  product into a zero accumulator is the plain sum over the contracted index, so entry `(p, q)` of the stored block is
  the graph-convolution layer `Cert.Gnn.conv` of the loaded blocks. The last body goes on: the layer's block through
  the `48 → 128` map, clipped below at zero, through the `128 → 1` map, and the logistic function — `Cert.Gnn.head`.
-/
import proofs.«155833_j14998025797672_1_alg».proof.Proof.Gen.KernelIdeal.Skeleton
import proofs.«155833_j14998025797672_1_alg».proof.Proof.LibDot
import proofs.«155833_j14998025797672_1_alg».proof.Proof.Spec
import Idealize.ShloMosaic.Lib.ValueLayout
import Idealize.ShloMosaic.Lib.Pipeline.Value

noncomputable section

namespace Cert.Gnn.Ker

open Cert.KernelIdeal Cert.KernelIdeal.Gen Idealize.ShloMosaic Idealize.ShloMosaic.ValueIdx

/-- The `[5000,48] × [48,48]` product's dimension numbers contract the left operand's columns with the right
    operand's rows. -/
theorem plain_48_48 : Cert.LibDot.Plain dot_S5000x48_S48x48_S5000x48_1_0_0_1_n_n where
  hrank := rfl
  hs := rfl
  hl0 := fun j k => by
    unfold DotDims.lhsIdx
    rw [dif_neg (show ¬(0 : Fin S5000x48.rank) ∈ dot_S5000x48_S48x48_S5000x48_1_0_0_1_n_n.lhsBatch by decide), dif_pos (show (0 : Fin S5000x48.rank) ∈ dot_S5000x48_S48x48_S5000x48_1_0_0_1_n_n.lhsNonContracting by decide)]
    rfl
  hl1 := fun j k => dot_S5000x48_S48x48_S5000x48_1_0_0_1_n_n.lhsIdx_val_of_single rfl j k
  hr0 := fun j k => dot_S5000x48_S48x48_S5000x48_1_0_0_1_n_n.rhsIdx_val_of_single rfl j k
  hr1 := fun j k => by
    unfold DotDims.rhsIdx
    rw [dif_neg (show ¬(1 : Fin S48x48.rank) ∈ dot_S5000x48_S48x48_S5000x48_1_0_0_1_n_n.rhsBatch by decide), dif_pos (show (1 : Fin S48x48.rank) ∈ dot_S5000x48_S48x48_S5000x48_1_0_0_1_n_n.rhsNonContracting by decide)]
    rfl

/-- The `[5000,48] × [48,128]` product's dimension numbers, likewise. -/
theorem plain_48_128 : Cert.LibDot.Plain dot_S5000x48_S48x128_S5000x128_1_0_0_1_n_n where
  hrank := rfl
  hs := rfl
  hl0 := fun j k => by
    unfold DotDims.lhsIdx
    rw [dif_neg (show ¬(0 : Fin S5000x48.rank) ∈ dot_S5000x48_S48x128_S5000x128_1_0_0_1_n_n.lhsBatch by decide), dif_pos (show (0 : Fin S5000x48.rank) ∈ dot_S5000x48_S48x128_S5000x128_1_0_0_1_n_n.lhsNonContracting by decide)]
    rfl
  hl1 := fun j k => dot_S5000x48_S48x128_S5000x128_1_0_0_1_n_n.lhsIdx_val_of_single rfl j k
  hr0 := fun j k => dot_S5000x48_S48x128_S5000x128_1_0_0_1_n_n.rhsIdx_val_of_single rfl j k
  hr1 := fun j k => by
    unfold DotDims.rhsIdx
    rw [dif_neg (show ¬(1 : Fin S48x128.rank) ∈ dot_S5000x48_S48x128_S5000x128_1_0_0_1_n_n.rhsBatch by decide), dif_pos (show (1 : Fin S48x128.rank) ∈ dot_S5000x48_S48x128_S5000x128_1_0_0_1_n_n.rhsNonContracting by decide)]
    rfl

/-- The `[5000,128] × [128,1]` product's dimension numbers, likewise. -/
theorem plain_128_1 : Cert.LibDot.Plain dot_S5000x128_S128x1_S5000x1_1_0_0_1_n_n where
  hrank := rfl
  hs := rfl
  hl0 := fun j k => by
    unfold DotDims.lhsIdx
    rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
    rfl
  hl1 := fun j k => dot_S5000x128_S128x1_S5000x1_1_0_0_1_n_n.lhsIdx_val_of_single rfl j k
  hr0 := fun j k => dot_S5000x128_S128x1_S5000x1_1_0_0_1_n_n.rhsIdx_val_of_single rfl j k
  hr1 := fun j k => by
    unfold DotDims.rhsIdx
    rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
    rfl

/-- The first layer's stored block at `(p, q)` is the layer of the loaded blocks: `v0` the features, `v2` the
    neighbourhood sums, `v5` and `v7` the two weight matrices, `v12` the bias row. -/
theorem pay0_apply (v0 v2 : Vec Ideal S5000x48 .f32) (v5 v7 : Vec Ideal S48x48 .f32) (v12 : Vec Ideal S1x48 .f32)
    (p : Fin 5000) (q : Fin 48) :
    k0_pay1 (F := Ideal) v0 v2 v5 v7 v12 (ix2 p q)
      = Cert.Gnn.conv (M := 5000) v0 v2 v5 v7 (fun q => v12 (ix2 (0 : Fin 1) q)) p q := by
  unfold k0_pay1 Cert.Gnn.conv
  dsimp only
  rw [addf_apply, addf_apply, Cert.LibDot.matmul_ix2 plain_48_48, Cert.LibDot.matmul_ix2 plain_48_48,
    broadcastTo_1b_ab_apply, shapeCast_self, shapeCast_self]
  rfl

/-- The second layer's stored block at `(p, q)`: the same layer (its loads are named differently). -/
theorem pay1_apply (v0 v3 : Vec Ideal S5000x48 .f32) (v6 v8 : Vec Ideal S48x48 .f32) (v13 : Vec Ideal S1x48 .f32)
    (p : Fin 5000) (q : Fin 48) :
    k1_pay1 (F := Ideal) v0 v3 v6 v8 v13 (ix2 p q)
      = Cert.Gnn.conv (M := 5000) v0 v3 v6 v8 (fun q => v13 (ix2 (0 : Fin 1) q)) p q := by
  unfold k1_pay1 Cert.Gnn.conv
  dsimp only
  rw [addf_apply, addf_apply, Cert.LibDot.matmul_ix2 plain_48_48, Cert.LibDot.matmul_ix2 plain_48_48,
    broadcastTo_1b_ab_apply, shapeCast_self, shapeCast_self, shapeCast_self]
  rfl

/-- The last body's stored block at `(p, q)` is the output head of the loaded blocks: the third layer's row, the
    hidden units clipped below at the zero word, the output map, the logistic function. -/
theorem pay2_apply (v0 v3 : Vec Ideal S5000x48 .f32) (v6 v8 : Vec Ideal S48x48 .f32) (v13 : Vec Ideal S1x48 .f32)
    (v18 : Vec Ideal S48x128 .f32) (v21 : Vec Ideal S1x128 .f32) (v28 : Vec Ideal S128x1 .f32) (v31 : Vec Ideal S1x1 .f32)
    (p : Fin 5000) (q : Fin 1) :
    k2_pay1 (F := Ideal) v0 v3 v6 v8 v13 v18 v21 v28 v31 (ix2 p q)
      = Cert.Gnn.head (M := 5000) v0 v3 v6 v8 (fun q => v13 (ix2 (0 : Fin 1) q)) v18 (fun k => v21 (ix2 (0 : Fin 1) k))
          v28 (fun q => v31 (ix2 (0 : Fin 1) q)) p q := by
  unfold k2_pay1 Cert.Gnn.head
  dsimp only
  simp only [shapeCast_self]
  refine congrArg Ideal.logistic ?_
  rw [addf_apply, Cert.LibDot.matmul_ix2 plain_128_1, broadcastTo_1b_ab_apply]
  refine congrArg₂ (· + ·) (Finset.sum_congr rfl fun k _ => congrArg₂ (· * ·) ?_ rfl) rfl
  unfold Cert.Gnn.hidden
  rw [truncf_apply, maximumf_apply, addf_apply, Cert.LibDot.matmul_ix2 plain_48_128, broadcastTo_1b_ab_apply]
  refine congrArg₂ max (congrArg₂ (· + ·) (Finset.sum_congr rfl fun j _ => congrArg₂ (· * ·) ?_ rfl) rfl) rfl
  unfold Cert.Gnn.conv
  rw [truncf_apply, addf_apply, addf_apply, Cert.LibDot.matmul_ix2 plain_48_48, Cert.LibDot.matmul_ix2 plain_48_48,
    broadcastTo_1b_ab_apply]
  rfl

/-- An entry of a layer depends on ONE row of the features and of the neighbourhood sums: two evaluations agree as
    soon as those rows, the weights and the bias do, whatever the arrays' heights. -/
theorem conv_congr {M M' : Nat} (h a : Cert.Gnn.Feat M) (h' a' : Cert.Gnn.Feat M') (Wr Wk Wr' Wk' : Cert.Gnn.Mat 48 48)
    (b b' : Fin 48 → EReal) (p : Fin M) (p' : Fin M') (q : Fin 48)
    (hh : ∀ k, h (ix2 p k) = h' (ix2 p' k)) (ha : ∀ k, a (ix2 p k) = a' (ix2 p' k))
    (hr : Wr = Wr') (hk : Wk = Wk') (hb : b = b') :
    Cert.Gnn.conv h a Wr Wk b p q = Cert.Gnn.conv h' a' Wr' Wk' b' p' q := by
  subst hr hk hb
  unfold Cert.Gnn.conv
  simp only [hh, ha]

/-- The output head likewise depends on one row of its two feature arrays. -/
theorem head_congr {M M' : Nat} (h a : Cert.Gnn.Feat M) (h' a' : Cert.Gnn.Feat M') (Wr Wk Wr' Wk' : Cert.Gnn.Mat 48 48)
    (b b' : Fin 48 → EReal) (m0W m0W' : Cert.Gnn.Mat 48 128) (m0b m0b' : Fin 128 → EReal) (m1W m1W' : Cert.Gnn.Mat 128 1)
    (m1b m1b' : Fin 1 → EReal) (p : Fin M) (p' : Fin M') (q : Fin 1)
    (hh : ∀ k, h (ix2 p k) = h' (ix2 p' k)) (ha : ∀ k, a (ix2 p k) = a' (ix2 p' k))
    (hr : Wr = Wr') (hk : Wk = Wk') (hb : b = b') (h0W : m0W = m0W') (h0b : m0b = m0b') (h1W : m1W = m1W') (h1b : m1b = m1b') :
    Cert.Gnn.head h a Wr Wk b m0W m0b m1W m1b p q = Cert.Gnn.head h' a' Wr' Wk' b' m0W' m0b' m1W' m1b' p' q := by
  subst h0W h0b h1W h1b
  unfold Cert.Gnn.head Cert.Gnn.hidden
  simp only [conv_congr h a h' a' Wr Wk Wr' Wk' b b' p p' _ hh ha hr hk hb]

end Cert.Gnn.Ker

end
-- ==== Proof.Reg0.lean ====
/-
  The first graph-convolution region, from the blocks back to the array.

  The region walks 20 grid points; point `t` stages rows `5000·t … 5000·t + 4999` of the node features and of their
  neighbourhood sums, and the whole of the two weight matrices and of the bias row, runs the body, and writes the
  stored block back to the same rows of the output array. An entry of a layer depends on one row of its two feature
  arrays only, so the block point `t` writes back IS rows `5000·t …` of the layer of the whole arrays; the twenty
  blocks tile the array (row `r` lies in block `r / 5000`), so the array ends holding the layer of the arrays as the
  region found them. Everything is stated at the region's entry contents `V`, whatever they are.
-/
import proofs.«155833_j14998025797672_1_alg».proof.Proof.Gen.KernelIdeal.Frame
import proofs.«155833_j14998025797672_1_alg».proof.Proof.Pay
import Idealize.ShloMosaic.Lib.Pipeline.Value

noncomputable section

namespace Cert.Gnn.Ker

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_r0 : (![0, 0] : Fin 2 → Nat) = fun _ => 0 := funext fun a => by fin_cases a <;> rfl

/-- The printed index maps over the grid: the two feature windows and the output window move one block of rows per
    point; the weights and the bias stay at block (0, 0). -/
theorem idx_r0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the features' block at point `t` is row `5000·t + p` of the features. -/
theorem rows_r0_0 (c : Dev nD) (t : Fin cfg0.N) (p : Fin 5000) (k : Fin 48) (i : Fin 100000)
    (hi : i.val = t.val * 5000 + p.val) :
    (iblk0 V c 0 t : Vec Ideal S5000x48 .f32) (ix2 p k) = (V c main_arg0 : S100000x48.Idx → Ideal .f32) (ix2 i k) := by
  obtain ⟨e00, e01, -⟩ := idx_r0 t
  show V c main_arg0 (((cfg0.win 0).blk t).view.emb (ix2 p k)) = V c main_arg0 (ix2 i k)
  refine congrArg _ (funext fun a => Fin.ext ?_)
  match a with
  | ⟨0, _⟩ => show win0_0.index t (0 : Fin 2) * 5000 + 1 * p.val = i.val; rw [e00, hi]; omega
  | ⟨1, _⟩ => show win0_0.index t (1 : Fin 2) * 48 + 1 * k.val = k.val; rw [e01]; omega

/-- Row `p` of the neighbourhood sums' block at point `t` is row `5000·t + p` of the neighbourhood sums. -/
theorem rows_r0_1 (c : Dev nD) (t : Fin cfg0.N) (p : Fin 5000) (k : Fin 48) (i : Fin 100000)
    (hi : i.val = t.val * 5000 + p.val) :
    (iblk0 V c 1 t : Vec Ideal S5000x48 .f32) (ix2 p k) = (V c main_v13 : S100000x48.Idx → Ideal .f32) (ix2 i k) := by
  obtain ⟨-, -, e10, e11, -⟩ := idx_r0 t
  show V c main_v13 (((cfg0.win 1).blk t).view.emb (ix2 p k)) = V c main_v13 (ix2 i k)
  refine congrArg _ (funext fun a => Fin.ext ?_)
  match a with
  | ⟨0, _⟩ => show win0_1.index t (0 : Fin 2) * 5000 + 1 * p.val = i.val; rw [e10, hi]; omega
  | ⟨1, _⟩ => show win0_1.index t (1 : Fin 2) * 48 + 1 * k.val = k.val; rw [e11]; omega

/-- The first weight matrix is staged whole at every point. -/
theorem whole_r0_2 (c : Dev nD) (t : Fin cfg0.N) :
    (iblk0 V c 2 t : Vec Ideal S48x48 .f32) = (V c main_arg2 : S48x48.Idx → Ideal .f32) := by
  obtain ⟨-, -, -, -, e20, e21, -⟩ := idx_r0 t
  funext y
  show V c main_arg2 (((cfg0.win 2).blk t).view.emb y) = V c main_arg2 y
  refine congrArg _ (funext fun a => Fin.ext ?_)
  match a with
  | ⟨0, _⟩ => show win0_2.index t (0 : Fin 2) * 48 + 1 * (y 0).val = (y 0).val; rw [e20]; omega
  | ⟨1, _⟩ => show win0_2.index t (1 : Fin 2) * 48 + 1 * (y 1).val = (y 1).val; rw [e21]; omega

/-- The bias row is staged whole at every point. -/
theorem whole_r0_3 (c : Dev nD) (t : Fin cfg0.N) :
    (iblk0 V c 3 t : Vec Ideal S1x48 .f32) = (V c main_v14 : S1x48.Idx → Ideal .f32) := by
  obtain ⟨-, -, -, -, -, -, e30, e31, -⟩ := idx_r0 t
  funext y
  show V c main_v14 (((cfg0.win 3).blk t).view.emb y) = V c main_v14 y
  refine congrArg _ (funext fun a => Fin.ext ?_)
  match a with
  | ⟨0, _⟩ => show win0_3.index t (0 : Fin 2) * 1 + 1 * (y 0).val = (y 0).val; rw [e30]; omega
  | ⟨1, _⟩ => show win0_3.index t (1 : Fin 2) * 48 + 1 * (y 1).val = (y 1).val; rw [e31]; omega

/-- The second weight matrix is staged whole at every point. -/
theorem whole_r0_4 (c : Dev nD) (t : Fin cfg0.N) :
    (iblk0 V c 4 t : Vec Ideal S48x48 .f32) = (V c main_arg4 : S48x48.Idx → Ideal .f32) := by
  obtain ⟨-, -, -, -, -, -, -, -, e40, e41, -⟩ := idx_r0 t
  funext y
  show V c main_arg4 (((cfg0.win 4).blk t).view.emb y) = V c main_arg4 y
  refine congrArg _ (funext fun a => Fin.ext ?_)
  match a with
  | ⟨0, _⟩ => show win0_4.index t (0 : Fin 2) * 48 + 1 * (y 0).val = (y 0).val; rw [e40]; omega
  | ⟨1, _⟩ => show win0_4.index t (1 : Fin 2) * 48 + 1 * (y 1).val = (y 1).val; rw [e41]; omega

/-- The layer of the whole arrays as the region finds them. -/
abbrev layer_r0 (c : Dev nD) : S100000x48.Idx → Ideal .f32 :=
  Cert.Gnn.convA (M := 100000) (V c main_arg0) (V c main_v13) (V c main_arg2) (V c main_arg4) (fun q => (V c main_v14 : S1x48.Idx → Ideal .f32) (ix2 (0 : Fin 1) q))

/-- One stored entry against the layer of the arrays: the body's payload of blocks whose row `p` is the arrays' row `P`. -/
theorem point_r0 (x0 x1 : Vec Ideal S5000x48 .f32) (x2 x4 : Vec Ideal S48x48 .f32) (x3 : Vec Ideal S1x48 .f32)
    (B0 B1 : S100000x48.Idx → Ideal .f32) (B2 B4 : S48x48.Idx → Ideal .f32) (B3 : S1x48.Idx → Ideal .f32)
    (p : Fin 5000) (q : Fin 48) (P : Fin 100000)
    (h0 : ∀ k : Fin 48, x0 (ix2 p k) = B0 (ix2 P k)) (h1 : ∀ k : Fin 48, x1 (ix2 p k) = B1 (ix2 P k))
    (h2 : x2 = B2) (h4 : x4 = B4) (h3 : x3 = B3) :
    k0_pay1 (F := Ideal) x0 x1 x2 x4 x3 (ix2 p q)
      = Cert.Gnn.convA (M := 100000) B0 B1 B2 B4 (fun q => B3 (ix2 (0 : Fin 1) q)) (ix2 P q) := by
  rw [pay0_apply]
  exact conv_congr _ _ _ _ _ _ _ _ _ _ p P q h0 h1 h2 h4 (by rw [h3])

/-- WHAT POINT `t` WRITES BACK is block `t` of the layer of the arrays as the region finds them. -/
theorem flushed_r0 (c : Dev nD) (t : Fin cfg0.N) :
    (dat0 V c).flushed 5 t = ((cfg0.win 5).blk t).view.read (Elt Ideal) (layer_r0 V c) := by
  show (cfg0.win 5).cut (grid0.coords t) ((dat0 V c).after 5 t) = _
  rw [after0_5]
  unfold out0_5
  rw [View.canon_unit_zero hz_r0]
  simp only [View.ld_unit_zero (S := S5000x48) hz_r0, View.ld_unit_zero (S := S48x48) hz_r0, View.ld_unit_zero (S := S1x48) hz_r0]
  obtain ⟨-, -, -, -, -, -, -, -, -, -, e50, e51⟩ := idx_r0 t
  have hN : cfg0.N = 20 := N_0
  have ht : t.val < 20 := hN ▸ t.isLt
  have key : ∀ (p : Fin 5000) (q : Fin 48),
      k0_pay1 (F := Ideal) (iblk0 V c 0 t) (iblk0 V c 1 t) (iblk0 V c 2 t) (iblk0 V c 4 t) (iblk0 V c 3 t) (ix2 p q)
        = layer_r0 V c (((cfg0.win 5).blk t).view.emb (ix2 p q)) := by
    intro p q
    have hP : t.val * 5000 + p.val < 100000 := by omega
    have hemb : ((cfg0.win 5).blk t).view.emb (ix2 p q) = (ix2 (⟨t.val * 5000 + p.val, hP⟩ : Fin 100000) q : S100000x48.Idx) := by
      funext a; apply Fin.ext
      match a with
      | ⟨0, _⟩ => show win0_5.index t (0 : Fin 2) * 5000 + 1 * p.val = t.val * 5000 + p.val; rw [e50]; omega
      | ⟨1, _⟩ => show win0_5.index t (1 : Fin 2) * 48 + 1 * q.val = q.val; rw [e51]; omega
    rw [hemb]
    exact point_r0 _ _ _ _ _ _ _ _ _ _ p q ⟨_, hP⟩ (fun k => rows_r0_0 V c t p k _ rfl) (fun k => rows_r0_1 V c t p k _ rfl)
      (whole_r0_2 V c t) (whole_r0_4 V c t) (whole_r0_3 V c t)
  funext y
  have hy : y = ix2 (n0 := 5000) (n1 := 48) (y 0) (y 1) := eq_ix2 y
  rw [hy]
  exact key (y 0) (y 1)

/-- An index of the output array is in point `t`'s block iff each coordinate is in the block's range on its axis. -/
theorem mem_blk_r0 (t : Fin cfg0.N) (i : S100000x48.Idx) :
    i ∈ ((cfg0.win 5).blk t).view.set ↔ ∀ a : Fin 2, win0_5.index t a * S5000x48.size a ≤ (i a).val ∧ (i a).val < win0_5.index t a * S5000x48.size a + S5000x48.size a := by
  show i ∈ ((View.whole main_v15).slice (win0_5.rect t)).set ↔ _
  rw [View.set_slice_whole, Rect.mem_set_unit]
  exact Iff.rfl

/-- The blocks tile the output array: row `r` lies in the block of point `r / 5000`. -/
theorem cover_r0 (i : S100000x48.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 48 := (i 1).isLt
  have ht : (i 0).val / 5000 < cfg0.N := by rw [hN]; omega
  obtain ⟨-, -, -, -, -, -, -, -, -, -, e50, e51⟩ := idx_r0 ⟨(i 0).val / 5000, ht⟩
  refine ⟨⟨(i 0).val / 5000, ht⟩, flush0_5 _, ?_⟩
  rw [mem_blk_r0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 48 ≤ (i 1).val ∧ (i 1).val < win0_5.index ⟨(i 0).val / 5000, ht⟩ (1 : Fin 2) * 48 + 48
    rw [e51]
    omega

/-- THE OUTPUT ARRAY after the region: the layer of the arrays as the region finds them. -/
theorem final_r0 (c : Dev nD) : (dat0 V c).arrAt 5 cfg0.N = layer_r0 V c :=
  (dat0 V c).arrAt_eq_of_cover 5 (layer_r0 V c) (fun t _ => flushed_r0 V c t) (cover_r0)

end Cert.Gnn.Ker

end
-- ==== Proof.Reg1.lean ====
/-
  The second graph-convolution region, from the blocks back to the array.

  The region walks 20 grid points; point `t` stages rows `5000·t … 5000·t + 4999` of the node features and of their
  neighbourhood sums, and the whole of the two weight matrices and of the bias row, runs the body, and writes the
  stored block back to the same rows of the output array. An entry of a layer depends on one row of its two feature
  arrays only, so the block point `t` writes back IS rows `5000·t …` of the layer of the whole arrays; the twenty
  blocks tile the array (row `r` lies in block `r / 5000`), so the array ends holding the layer of the arrays as the
  region found them. Everything is stated at the region's entry contents `V`, whatever they are.
-/
import proofs.«155833_j14998025797672_1_alg».proof.Proof.Gen.KernelIdeal.Frame
import proofs.«155833_j14998025797672_1_alg».proof.Proof.Pay
import Idealize.ShloMosaic.Lib.Pipeline.Value

noncomputable section

namespace Cert.Gnn.Ker

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_r1 : (![0, 0] : Fin 2 → Nat) = fun _ => 0 := funext fun a => by fin_cases a <;> rfl

/-- The printed index maps over the grid: the two feature windows and the output window move one block of rows per
    point; the weights and the bias stay at block (0, 0). -/
theorem idx_r1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the features' block at point `t` is row `5000·t + p` of the features. -/
theorem rows_r1_0 (c : Dev nD) (t : Fin cfg1.N) (p : Fin 5000) (k : Fin 48) (i : Fin 100000)
    (hi : i.val = t.val * 5000 + p.val) :
    (iblk1 V c 0 t : Vec Ideal S5000x48 .f32) (ix2 p k) = (V c main_v15 : S100000x48.Idx → Ideal .f32) (ix2 i k) := by
  obtain ⟨e00, e01, -⟩ := idx_r1 t
  show V c main_v15 (((cfg1.win 0).blk t).view.emb (ix2 p k)) = V c main_v15 (ix2 i k)
  refine congrArg _ (funext fun a => Fin.ext ?_)
  match a with
  | ⟨0, _⟩ => show win1_0.index t (0 : Fin 2) * 5000 + 1 * p.val = i.val; rw [e00, hi]; omega
  | ⟨1, _⟩ => show win1_0.index t (1 : Fin 2) * 48 + 1 * k.val = k.val; rw [e01]; omega

/-- Row `p` of the neighbourhood sums' block at point `t` is row `5000·t + p` of the neighbourhood sums. -/
theorem rows_r1_1 (c : Dev nD) (t : Fin cfg1.N) (p : Fin 5000) (k : Fin 48) (i : Fin 100000)
    (hi : i.val = t.val * 5000 + p.val) :
    (iblk1 V c 1 t : Vec Ideal S5000x48 .f32) (ix2 p k) = (V c main_v25 : S100000x48.Idx → Ideal .f32) (ix2 i k) := by
  obtain ⟨-, -, e10, e11, -⟩ := idx_r1 t
  show V c main_v25 (((cfg1.win 1).blk t).view.emb (ix2 p k)) = V c main_v25 (ix2 i k)
  refine congrArg _ (funext fun a => Fin.ext ?_)
  match a with
  | ⟨0, _⟩ => show win1_1.index t (0 : Fin 2) * 5000 + 1 * p.val = i.val; rw [e10, hi]; omega
  | ⟨1, _⟩ => show win1_1.index t (1 : Fin 2) * 48 + 1 * k.val = k.val; rw [e11]; omega

/-- The first weight matrix is staged whole at every point. -/
theorem whole_r1_2 (c : Dev nD) (t : Fin cfg1.N) :
    (iblk1 V c 2 t : Vec Ideal S48x48 .f32) = (V c main_arg5 : S48x48.Idx → Ideal .f32) := by
  obtain ⟨-, -, -, -, e20, e21, -⟩ := idx_r1 t
  funext y
  show V c main_arg5 (((cfg1.win 2).blk t).view.emb y) = V c main_arg5 y
  refine congrArg _ (funext fun a => Fin.ext ?_)
  match a with
  | ⟨0, _⟩ => show win1_2.index t (0 : Fin 2) * 48 + 1 * (y 0).val = (y 0).val; rw [e20]; omega
  | ⟨1, _⟩ => show win1_2.index t (1 : Fin 2) * 48 + 1 * (y 1).val = (y 1).val; rw [e21]; omega

/-- The bias row is staged whole at every point. -/
theorem whole_r1_3 (c : Dev nD) (t : Fin cfg1.N) :
    (iblk1 V c 3 t : Vec Ideal S1x48 .f32) = (V c main_v26 : S1x48.Idx → Ideal .f32) := by
  obtain ⟨-, -, -, -, -, -, e30, e31, -⟩ := idx_r1 t
  funext y
  show V c main_v26 (((cfg1.win 3).blk t).view.emb y) = V c main_v26 y
  refine congrArg _ (funext fun a => Fin.ext ?_)
  match a with
  | ⟨0, _⟩ => show win1_3.index t (0 : Fin 2) * 1 + 1 * (y 0).val = (y 0).val; rw [e30]; omega
  | ⟨1, _⟩ => show win1_3.index t (1 : Fin 2) * 48 + 1 * (y 1).val = (y 1).val; rw [e31]; omega

/-- The second weight matrix is staged whole at every point. -/
theorem whole_r1_4 (c : Dev nD) (t : Fin cfg1.N) :
    (iblk1 V c 4 t : Vec Ideal S48x48 .f32) = (V c main_arg7 : S48x48.Idx → Ideal .f32) := by
  obtain ⟨-, -, -, -, -, -, -, -, e40, e41, -⟩ := idx_r1 t
  funext y
  show V c main_arg7 (((cfg1.win 4).blk t).view.emb y) = V c main_arg7 y
  refine congrArg _ (funext fun a => Fin.ext ?_)
  match a with
  | ⟨0, _⟩ => show win1_4.index t (0 : Fin 2) * 48 + 1 * (y 0).val = (y 0).val; rw [e40]; omega
  | ⟨1, _⟩ => show win1_4.index t (1 : Fin 2) * 48 + 1 * (y 1).val = (y 1).val; rw [e41]; omega

/-- The layer of the whole arrays as the region finds them. -/
abbrev layer_r1 (c : Dev nD) : S100000x48.Idx → Ideal .f32 :=
  Cert.Gnn.convA (M := 100000) (V c main_v15) (V c main_v25) (V c main_arg5) (V c main_arg7) (fun q => (V c main_v26 : S1x48.Idx → Ideal .f32) (ix2 (0 : Fin 1) q))

/-- One stored entry against the layer of the arrays: the body's payload of blocks whose row `p` is the arrays' row `P`. -/
theorem point_r1 (x0 x1 : Vec Ideal S5000x48 .f32) (x2 x4 : Vec Ideal S48x48 .f32) (x3 : Vec Ideal S1x48 .f32)
    (B0 B1 : S100000x48.Idx → Ideal .f32) (B2 B4 : S48x48.Idx → Ideal .f32) (B3 : S1x48.Idx → Ideal .f32)
    (p : Fin 5000) (q : Fin 48) (P : Fin 100000)
    (h0 : ∀ k : Fin 48, x0 (ix2 p k) = B0 (ix2 P k)) (h1 : ∀ k : Fin 48, x1 (ix2 p k) = B1 (ix2 P k))
    (h2 : x2 = B2) (h4 : x4 = B4) (h3 : x3 = B3) :
    k1_pay1 (F := Ideal) x0 x1 x2 x4 x3 (ix2 p q)
      = Cert.Gnn.convA (M := 100000) B0 B1 B2 B4 (fun q => B3 (ix2 (0 : Fin 1) q)) (ix2 P q) := by
  rw [pay1_apply]
  exact conv_congr _ _ _ _ _ _ _ _ _ _ p P q h0 h1 h2 h4 (by rw [h3])

/-- WHAT POINT `t` WRITES BACK is block `t` of the layer of the arrays as the region finds them. -/
theorem flushed_r1 (c : Dev nD) (t : Fin cfg1.N) :
    (dat1 V c).flushed 5 t = ((cfg1.win 5).blk t).view.read (Elt Ideal) (layer_r1 V c) := by
  show (cfg1.win 5).cut (grid1.coords t) ((dat1 V c).after 5 t) = _
  rw [after1_5]
  unfold out1_5
  rw [View.canon_unit_zero hz_r1]
  simp only [View.ld_unit_zero (S := S5000x48) hz_r1, View.ld_unit_zero (S := S48x48) hz_r1, View.ld_unit_zero (S := S1x48) hz_r1]
  obtain ⟨-, -, -, -, -, -, -, -, -, -, e50, e51⟩ := idx_r1 t
  have hN : cfg1.N = 20 := N_1
  have ht : t.val < 20 := hN ▸ t.isLt
  have key : ∀ (p : Fin 5000) (q : Fin 48),
      k1_pay1 (F := Ideal) (iblk1 V c 0 t) (iblk1 V c 1 t) (iblk1 V c 2 t) (iblk1 V c 4 t) (iblk1 V c 3 t) (ix2 p q)
        = layer_r1 V c (((cfg1.win 5).blk t).view.emb (ix2 p q)) := by
    intro p q
    have hP : t.val * 5000 + p.val < 100000 := by omega
    have hemb : ((cfg1.win 5).blk t).view.emb (ix2 p q) = (ix2 (⟨t.val * 5000 + p.val, hP⟩ : Fin 100000) q : S100000x48.Idx) := by
      funext a; apply Fin.ext
      match a with
      | ⟨0, _⟩ => show win1_5.index t (0 : Fin 2) * 5000 + 1 * p.val = t.val * 5000 + p.val; rw [e50]; omega
      | ⟨1, _⟩ => show win1_5.index t (1 : Fin 2) * 48 + 1 * q.val = q.val; rw [e51]; omega
    rw [hemb]
    exact point_r1 _ _ _ _ _ _ _ _ _ _ p q ⟨_, hP⟩ (fun k => rows_r1_0 V c t p k _ rfl) (fun k => rows_r1_1 V c t p k _ rfl)
      (whole_r1_2 V c t) (whole_r1_4 V c t) (whole_r1_3 V c t)
  funext y
  have hy : y = ix2 (n0 := 5000) (n1 := 48) (y 0) (y 1) := eq_ix2 y
  rw [hy]
  exact key (y 0) (y 1)

/-- An index of the output array is in point `t`'s block iff each coordinate is in the block's range on its axis. -/
theorem mem_blk_r1 (t : Fin cfg1.N) (i : S100000x48.Idx) :
    i ∈ ((cfg1.win 5).blk t).view.set ↔ ∀ a : Fin 2, win1_5.index t a * S5000x48.size a ≤ (i a).val ∧ (i a).val < win1_5.index t a * S5000x48.size a + S5000x48.size a := by
  show i ∈ ((View.whole main_v27).slice (win1_5.rect t)).set ↔ _
  rw [View.set_slice_whole, Rect.mem_set_unit]
  exact Iff.rfl

/-- The blocks tile the output array: row `r` lies in the block of point `r / 5000`. -/
theorem cover_r1 (i : S100000x48.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 48 := (i 1).isLt
  have ht : (i 0).val / 5000 < cfg1.N := by rw [hN]; omega
  obtain ⟨-, -, -, -, -, -, -, -, -, -, e50, e51⟩ := idx_r1 ⟨(i 0).val / 5000, ht⟩
  refine ⟨⟨(i 0).val / 5000, ht⟩, flush1_5 _, ?_⟩
  rw [mem_blk_r1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 48 ≤ (i 1).val ∧ (i 1).val < win1_5.index ⟨(i 0).val / 5000, ht⟩ (1 : Fin 2) * 48 + 48
    rw [e51]
    omega

/-- THE OUTPUT ARRAY after the region: the layer of the arrays as the region finds them. -/
theorem final_r1 (c : Dev nD) : (dat1 V c).arrAt 5 cfg1.N = layer_r1 V c :=
  (dat1 V c).arrAt_eq_of_cover 5 (layer_r1 V c) (fun t _ => flushed_r1 V c t) (cover_r1)

end Cert.Gnn.Ker

end
-- ==== Proof.Reg2.lean ====
/-
  The output-head region, from the blocks back to the array.

  The region walks 20 grid points; point `t` stages rows `5000·t … 5000·t + 4999` of the node features and of their
  neighbourhood sums, and the whole of every weight matrix and bias row, runs the body, and writes the stored
  `5000 × 1` block back to the same rows of the output array. An entry of the head depends on one row of its two
  feature arrays only, so the block point `t` writes back IS rows `5000·t …` of the head of the whole arrays; the
  twenty blocks tile the array, so it ends holding the head of the arrays as the region found them.
-/
import proofs.«155833_j14998025797672_1_alg».proof.Proof.Gen.KernelIdeal.Frame
import proofs.«155833_j14998025797672_1_alg».proof.Proof.Pay
import Idealize.ShloMosaic.Lib.Pipeline.Value

noncomputable section

namespace Cert.Gnn.Ker

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_r2 : (![0, 0] : Fin 2 → Nat) = fun _ => 0 := funext fun a => by fin_cases a <;> rfl

/-- The printed index maps over the grid: the two feature windows and the output window move one block of rows per
    point; every weight and bias window stays at block (0, 0). -/
theorem idx_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row `p` of the features' block at point `t` is row `5000·t + p` of the features. -/
theorem rows_r2_0 (c : Dev nD) (t : Fin cfg2.N) (p : Fin 5000) (k : Fin 48) (i : Fin 100000)
    (hi : i.val = t.val * 5000 + p.val) :
    (iblk2 V c 0 t : Vec Ideal S5000x48 .f32) (ix2 p k) = (V c main_v27 : S100000x48.Idx → Ideal .f32) (ix2 i k) := by
  have e := idx_r2 t
  show V c main_v27 (((cfg2.win 0).blk t).view.emb (ix2 p k)) = V c main_v27 (ix2 i k)
  refine congrArg _ (funext fun a => Fin.ext ?_)
  match a with
  | ⟨0, _⟩ => show win2_0.index t (0 : Fin 2) * 5000 + 1 * p.val = i.val; rw [e.1, hi]; omega
  | ⟨1, _⟩ => show win2_0.index t (1 : Fin 2) * 48 + 1 * k.val = k.val; rw [e.2.1]; omega

/-- Row `p` of the neighbourhood sums' block at point `t` is row `5000·t + p` of the neighbourhood sums. -/
theorem rows_r2_1 (c : Dev nD) (t : Fin cfg2.N) (p : Fin 5000) (k : Fin 48) (i : Fin 100000)
    (hi : i.val = t.val * 5000 + p.val) :
    (iblk2 V c 1 t : Vec Ideal S5000x48 .f32) (ix2 p k) = (V c main_v37 : S100000x48.Idx → Ideal .f32) (ix2 i k) := by
  have e := idx_r2 t
  show V c main_v37 (((cfg2.win 1).blk t).view.emb (ix2 p k)) = V c main_v37 (ix2 i k)
  refine congrArg _ (funext fun a => Fin.ext ?_)
  match a with
  | ⟨0, _⟩ => show win2_1.index t (0 : Fin 2) * 5000 + 1 * p.val = i.val; rw [e.2.2.1, hi]; omega
  | ⟨1, _⟩ => show win2_1.index t (1 : Fin 2) * 48 + 1 * k.val = k.val; rw [e.2.2.2.1]; omega

/-- The layer's first weight matrix is staged whole at every point. -/
theorem whole_r2_2 (c : Dev nD) (t : Fin cfg2.N) :
    (iblk2 V c 2 t : Vec Ideal S48x48 .f32) = (V c main_arg8 : S48x48.Idx → Ideal .f32) := by
  have e := idx_r2 t
  funext y
  show V c main_arg8 (((cfg2.win 2).blk t).view.emb y) = V c main_arg8 y
  refine congrArg _ (funext fun a => Fin.ext ?_)
  match a with
  | ⟨0, _⟩ => show win2_2.index t (0 : Fin 2) * 48 + 1 * (y 0).val = (y 0).val; rw [e.2.2.2.2.1]; omega
  | ⟨1, _⟩ => show win2_2.index t (1 : Fin 2) * 48 + 1 * (y 1).val = (y 1).val; rw [e.2.2.2.2.2.1]; omega

/-- The layer's bias row is staged whole at every point. -/
theorem whole_r2_3 (c : Dev nD) (t : Fin cfg2.N) :
    (iblk2 V c 3 t : Vec Ideal S1x48 .f32) = (V c main_v38 : S1x48.Idx → Ideal .f32) := by
  have e := idx_r2 t
  funext y
  show V c main_v38 (((cfg2.win 3).blk t).view.emb y) = V c main_v38 y
  refine congrArg _ (funext fun a => Fin.ext ?_)
  match a with
  | ⟨0, _⟩ => show win2_3.index t (0 : Fin 2) * 1 + 1 * (y 0).val = (y 0).val; rw [e.2.2.2.2.2.2.1]; omega
  | ⟨1, _⟩ => show win2_3.index t (1 : Fin 2) * 48 + 1 * (y 1).val = (y 1).val; rw [e.2.2.2.2.2.2.2.1]; omega

/-- The layer's second weight matrix is staged whole at every point. -/
theorem whole_r2_4 (c : Dev nD) (t : Fin cfg2.N) :
    (iblk2 V c 4 t : Vec Ideal S48x48 .f32) = (V c main_arg10 : S48x48.Idx → Ideal .f32) := by
  have e := idx_r2 t
  funext y
  show V c main_arg10 (((cfg2.win 4).blk t).view.emb y) = V c main_arg10 y
  refine congrArg _ (funext fun a => Fin.ext ?_)
  match a with
  | ⟨0, _⟩ => show win2_4.index t (0 : Fin 2) * 48 + 1 * (y 0).val = (y 0).val; rw [e.2.2.2.2.2.2.2.2.1]; omega
  | ⟨1, _⟩ => show win2_4.index t (1 : Fin 2) * 48 + 1 * (y 1).val = (y 1).val; rw [e.2.2.2.2.2.2.2.2.2.1]; omega

/-- The hidden map's weight matrix is staged whole at every point. -/
theorem whole_r2_5 (c : Dev nD) (t : Fin cfg2.N) :
    (iblk2 V c 5 t : Vec Ideal S48x128 .f32) = (V c main_arg11 : S48x128.Idx → Ideal .f32) := by
  have e := idx_r2 t
  funext y
  show V c main_arg11 (((cfg2.win 5).blk t).view.emb y) = V c main_arg11 y
  refine congrArg _ (funext fun a => Fin.ext ?_)
  match a with
  | ⟨0, _⟩ => show win2_5.index t (0 : Fin 2) * 48 + 1 * (y 0).val = (y 0).val; rw [e.2.2.2.2.2.2.2.2.2.2.1]; omega
  | ⟨1, _⟩ => show win2_5.index t (1 : Fin 2) * 128 + 1 * (y 1).val = (y 1).val; rw [e.2.2.2.2.2.2.2.2.2.2.2.1]; omega

/-- The hidden map's bias row is staged whole at every point. -/
theorem whole_r2_6 (c : Dev nD) (t : Fin cfg2.N) :
    (iblk2 V c 6 t : Vec Ideal S1x128 .f32) = (V c main_v39 : S1x128.Idx → Ideal .f32) := by
  have e := idx_r2 t
  funext y
  show V c main_v39 (((cfg2.win 6).blk t).view.emb y) = V c main_v39 y
  refine congrArg _ (funext fun a => Fin.ext ?_)
  match a with
  | ⟨0, _⟩ => show win2_6.index t (0 : Fin 2) * 1 + 1 * (y 0).val = (y 0).val; rw [e.2.2.2.2.2.2.2.2.2.2.2.2.1]; omega
  | ⟨1, _⟩ => show win2_6.index t (1 : Fin 2) * 128 + 1 * (y 1).val = (y 1).val; rw [e.2.2.2.2.2.2.2.2.2.2.2.2.2.1]; omega

/-- The output map's weight column is staged whole at every point. -/
theorem whole_r2_7 (c : Dev nD) (t : Fin cfg2.N) :
    (iblk2 V c 7 t : Vec Ideal S128x1 .f32) = (V c main_arg13 : S128x1.Idx → Ideal .f32) := by
  have e := idx_r2 t
  funext y
  show V c main_arg13 (((cfg2.win 7).blk t).view.emb y) = V c main_arg13 y
  refine congrArg _ (funext fun a => Fin.ext ?_)
  match a with
  | ⟨0, _⟩ => show win2_7.index t (0 : Fin 2) * 128 + 1 * (y 0).val = (y 0).val; rw [e.2.2.2.2.2.2.2.2.2.2.2.2.2.2.1]; omega
  | ⟨1, _⟩ => show win2_7.index t (1 : Fin 2) * 1 + 1 * (y 1).val = (y 1).val; rw [e.2.2.2.2.2.2.2.2.2.2.2.2.2.2.2.1]; omega

/-- The output map's bias is staged whole at every point. -/
theorem whole_r2_8 (c : Dev nD) (t : Fin cfg2.N) :
    (iblk2 V c 8 t : Vec Ideal S1x1 .f32) = (V c main_v40 : S1x1.Idx → Ideal .f32) := by
  have e := idx_r2 t
  funext y
  show V c main_v40 (((cfg2.win 8).blk t).view.emb y) = V c main_v40 y
  refine congrArg _ (funext fun a => Fin.ext ?_)
  match a with
  | ⟨0, _⟩ => show win2_8.index t (0 : Fin 2) * 1 + 1 * (y 0).val = (y 0).val; rw [e.2.2.2.2.2.2.2.2.2.2.2.2.2.2.2.2.1]; omega
  | ⟨1, _⟩ => show win2_8.index t (1 : Fin 2) * 1 + 1 * (y 1).val = (y 1).val; rw [e.2.2.2.2.2.2.2.2.2.2.2.2.2.2.2.2.2.1]; omega

/-- The head of the whole arrays as the region finds them. -/
abbrev layer_r2 (c : Dev nD) : S100000x1.Idx → Ideal .f32 :=
  Cert.Gnn.headA (M := 100000) (V c main_v27) (V c main_v37) (V c main_arg8) (V c main_arg10)
    (fun q => (V c main_v38 : S1x48.Idx → Ideal .f32) (ix2 (0 : Fin 1) q)) (V c main_arg11)
    (fun k => (V c main_v39 : S1x128.Idx → Ideal .f32) (ix2 (0 : Fin 1) k)) (V c main_arg13)
    (fun q => (V c main_v40 : S1x1.Idx → Ideal .f32) (ix2 (0 : Fin 1) q))

/-- One stored entry against the head of the arrays: the body's payload of blocks whose row `p` is the arrays' row `P`. -/
theorem point_r2 (x0 x1 : Vec Ideal S5000x48 .f32) (x2 x4 : Vec Ideal S48x48 .f32) (x3 : Vec Ideal S1x48 .f32)
    (x5 : Vec Ideal S48x128 .f32) (x6 : Vec Ideal S1x128 .f32) (x7 : Vec Ideal S128x1 .f32) (x8 : Vec Ideal S1x1 .f32)
    (B0 B1 : S100000x48.Idx → Ideal .f32) (B2 B4 : S48x48.Idx → Ideal .f32) (B3 : S1x48.Idx → Ideal .f32)
    (B5 : S48x128.Idx → Ideal .f32) (B6 : S1x128.Idx → Ideal .f32) (B7 : S128x1.Idx → Ideal .f32) (B8 : S1x1.Idx → Ideal .f32)
    (p : Fin 5000) (q : Fin 1) (P : Fin 100000)
    (h0 : ∀ k : Fin 48, x0 (ix2 p k) = B0 (ix2 P k)) (h1 : ∀ k : Fin 48, x1 (ix2 p k) = B1 (ix2 P k))
    (h2 : x2 = B2) (h4 : x4 = B4) (h3 : x3 = B3) (h5 : x5 = B5) (h6 : x6 = B6) (h7 : x7 = B7) (h8 : x8 = B8) :
    k2_pay1 (F := Ideal) x0 x1 x2 x4 x3 x5 x6 x7 x8 (ix2 p q)
      = Cert.Gnn.headA (M := 100000) B0 B1 B2 B4 (fun q => B3 (ix2 (0 : Fin 1) q)) B5 (fun k => B6 (ix2 (0 : Fin 1) k)) B7
          (fun q => B8 (ix2 (0 : Fin 1) q)) (ix2 P q) := by
  rw [pay2_apply]
  exact head_congr _ _ _ _ _ _ _ _ _ _ _ _ _ _ _ _ _ _ p P q h0 h1 h2 h4 (by rw [h3]) h5 (by rw [h6]) h7 (by rw [h8])

/-- WHAT POINT `t` WRITES BACK is block `t` of the head of the arrays as the region finds them. -/
theorem flushed_r2 (c : Dev nD) (t : Fin cfg2.N) :
    (dat2 V c).flushed 9 t = ((cfg2.win 9).blk t).view.read (Elt Ideal) (layer_r2 V c) := by
  show (cfg2.win 9).cut (grid2.coords t) ((dat2 V c).after 9 t) = _
  rw [after2_9]
  unfold out2_9
  rw [View.canon_unit_zero hz_r2]
  simp only [View.ld_unit_zero (S := S5000x48) hz_r2, View.ld_unit_zero (S := S48x48) hz_r2, View.ld_unit_zero (S := S1x48) hz_r2,
    View.ld_unit_zero (S := S48x128) hz_r2, View.ld_unit_zero (S := S1x128) hz_r2, View.ld_unit_zero (S := S128x1) hz_r2,
    View.ld_unit_zero (S := S1x1) hz_r2]
  have e := idx_r2 t
  have hN : cfg2.N = 20 := N_2
  have ht : t.val < 20 := hN ▸ t.isLt
  have key : ∀ (p : Fin 5000) (q : Fin 1),
      k2_pay1 (F := Ideal) (iblk2 V c 0 t) (iblk2 V c 1 t) (iblk2 V c 2 t) (iblk2 V c 4 t) (iblk2 V c 3 t) (iblk2 V c 5 t)
          (iblk2 V c 6 t) (iblk2 V c 7 t) (iblk2 V c 8 t) (ix2 p q)
        = layer_r2 V c (((cfg2.win 9).blk t).view.emb (ix2 p q)) := by
    intro p q
    have hP : t.val * 5000 + p.val < 100000 := by omega
    have hemb : ((cfg2.win 9).blk t).view.emb (ix2 p q) = (ix2 (⟨t.val * 5000 + p.val, hP⟩ : Fin 100000) q : S100000x1.Idx) := by
      funext a; apply Fin.ext
      match a with
      | ⟨0, _⟩ => show win2_9.index t (0 : Fin 2) * 5000 + 1 * p.val = t.val * 5000 + p.val; rw [e.2.2.2.2.2.2.2.2.2.2.2.2.2.2.2.2.2.2.1]; omega
      | ⟨1, _⟩ => show win2_9.index t (1 : Fin 2) * 1 + 1 * q.val = q.val; rw [e.2.2.2.2.2.2.2.2.2.2.2.2.2.2.2.2.2.2.2]; omega
    rw [hemb]
    exact point_r2 _ _ _ _ _ _ _ _ _ _ _ _ _ _ _ _ _ _ p q ⟨_, hP⟩ (fun k => rows_r2_0 V c t p k _ rfl) (fun k => rows_r2_1 V c t p k _ rfl)
      (whole_r2_2 V c t) (whole_r2_4 V c t) (whole_r2_3 V c t) (whole_r2_5 V c t) (whole_r2_6 V c t) (whole_r2_7 V c t) (whole_r2_8 V c t)
  funext y
  have hy : y = ix2 (n0 := 5000) (n1 := 1) (y 0) (y 1) := eq_ix2 y
  rw [hy]
  exact key (y 0) (y 1)

/-- An index of the output array is in point `t`'s block iff each coordinate is in the block's range on its axis. -/
theorem mem_blk_r2 (t : Fin cfg2.N) (i : S100000x1.Idx) :
    i ∈ ((cfg2.win 9).blk t).view.set ↔ ∀ a : Fin 2, win2_9.index t a * S5000x1.size a ≤ (i a).val ∧ (i a).val < win2_9.index t a * S5000x1.size a + S5000x1.size a := by
  show i ∈ ((View.whole main_v41).slice (win2_9.rect t)).set ↔ _
  rw [View.set_slice_whole, Rect.mem_set_unit]
  exact Iff.rfl

/-- The blocks tile the output array: row `r` lies in the block of point `r / 5000`. -/
theorem cover_r2 (i : S100000x1.Idx) :
    ∃ t : Fin cfg2.N, (cfg2.win 9).flush t = true ∧ i ∈ ((cfg2.win 9).blk t).view.set := by
  have hN : cfg2.N = 20 := N_2
  have hi0 : (i 0).val < 100000 := (i 0).isLt
  have hi1 : (i 1).val < 1 := (i 1).isLt
  have ht : (i 0).val / 5000 < cfg2.N := by rw [hN]; omega
  have e := idx_r2 ⟨(i 0).val / 5000, ht⟩
  refine ⟨⟨(i 0).val / 5000, ht⟩, flush2_9 _, ?_⟩
  rw [mem_blk_r2]
  intro a
  match a with
  | ⟨0, _⟩ =>
    show win2_9.index ⟨(i 0).val / 5000, ht⟩ (0 : Fin 2) * 5000 ≤ (i 0).val ∧ (i 0).val < win2_9.index ⟨(i 0).val / 5000, ht⟩ (0 : Fin 2) * 5000 + 5000
    rw [e.2.2.2.2.2.2.2.2.2.2.2.2.2.2.2.2.2.2.1]
    show (i 0).val / 5000 * 5000 ≤ (i 0).val ∧ (i 0).val < (i 0).val / 5000 * 5000 + 5000
    omega
  | ⟨1, _⟩ =>
    show win2_9.index ⟨(i 0).val / 5000, ht⟩ (1 : Fin 2) * 1 ≤ (i 1).val ∧ (i 1).val < win2_9.index ⟨(i 0).val / 5000, ht⟩ (1 : Fin 2) * 1 + 1
    rw [e.2.2.2.2.2.2.2.2.2.2.2.2.2.2.2.2.2.2.2]
    omega

/-- THE OUTPUT ARRAY after the region: the head of the arrays as the region finds them. -/
theorem final_r2 (c : Dev nD) : (dat2 V c).arrAt 9 cfg2.N = layer_r2 V c :=
  (dat2 V c).arrAt_eq_of_cover 9 (layer_r2 V c) (fun t _ => flushed_r2 V c t) (cover_r2)

end Cert.Gnn.Ker

end
-- ==== Proof.Walk.lean ====
/-
  The kernel program's result, boundary by boundary.

  The program alternates stretches of host operations with kernel regions. After the first stretch the buffers hold
  the edges' sources and targets, the neighbourhood sums of the input features and the first bias as a row; region 0
  leaves the first layer `H1` in its output array and every other buffer as it found it; the second stretch computes
  the neighbourhood sums of `H1`; region 1 leaves the second layer `H2`; the third stretch computes the neighbourhood
  sums of `H2` and lays the remaining biases out as rows; region 2 leaves the output head. A buffer that a segment does
  not write is read back through it unchanged, so each region's inputs are named functions of the launch memory, and
  the result buffer ends holding the network `Cert.Gnn.net` of the argument arrays.
-/
import proofs.«155833_j14998025797672_1_alg».proof.Proof.Gen.KernelIdeal.Frame
import proofs.«155833_j14998025797672_1_alg».proof.Proof.Agg
import proofs.«155833_j14998025797672_1_alg».proof.Proof.Reg0
import proofs.«155833_j14998025797672_1_alg».proof.Proof.Reg1
import proofs.«155833_j14998025797672_1_alg».proof.Proof.Reg2
import Idealize.ShloMosaic.Lib.StableHlo.Run
import Idealize.ShloMosaic.Lib.ValueLayout

noncomputable section

namespace Cert.Gnn.Ker

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- A bias vector laid out as a one-row matrix reads, at column `q` of its row, the vector at `q`. -/
theorem row_of_vec {n : Nat} (b : (⟨1, ![n]⟩ : Shape).Idx → EReal) (h : (⟨1, ![n]⟩ : Shape).ShapeCasts ⟨2, ![1, n]⟩) :
    (fun q : Fin n => shapeCast ⟨2, ![1, n]⟩ b h (ix2 (0 : Fin 1) q)) = fun q => b (ix1 q) :=
  funext fun q => shapeCast_a_1a_apply b h 0 q

/-! ## After the first stretch of host operations -/
/-- The first stretch does not write argument 0. -/
theorem w1_arg0 (c : Dev nD) : W1 m ρ c (Proc.devRef .tc main_arg0) = m ((c : Thread nD τ).loc main_arg0) := by
  dsimp only [W1, hostOps0]; after_results <;> rfl

/-- The first stretch does not write argument 2. -/
theorem w1_arg2 (c : Dev nD) : W1 m ρ c (Proc.devRef .tc main_arg2) = m ((c : Thread nD τ).loc main_arg2) := by
  dsimp only [W1, hostOps0]; after_results <;> rfl

/-- The first stretch does not write argument 4. -/
theorem w1_arg4 (c : Dev nD) : W1 m ρ c (Proc.devRef .tc main_arg4) = m ((c : Thread nD τ).loc main_arg4) := by
  dsimp only [W1, hostOps0]; after_results <;> rfl

/-- The first stretch does not write argument 5. -/
theorem w1_arg5 (c : Dev nD) : W1 m ρ c (Proc.devRef .tc main_arg5) = m ((c : Thread nD τ).loc main_arg5) := by
  dsimp only [W1, hostOps0]; after_results <;> rfl

/-- The first stretch does not write argument 6. -/
theorem w1_arg6 (c : Dev nD) : W1 m ρ c (Proc.devRef .tc main_arg6) = m ((c : Thread nD τ).loc main_arg6) := by
  dsimp only [W1, hostOps0]; after_results <;> rfl

/-- The first stretch does not write argument 7. -/
theorem w1_arg7 (c : Dev nD) : W1 m ρ c (Proc.devRef .tc main_arg7) = m ((c : Thread nD τ).loc main_arg7) := by
  dsimp only [W1, hostOps0]; after_results <;> rfl

/-- The edges' sources. -/
theorem w1_v1 (c : Dev nD) : W1 m ρ c (Proc.devRef .tc main_v1) = srcK (m ((c : Thread nD τ).loc main_arg1)) := by
  dsimp only [W1, hostOps0]; after_results <;> rfl

/-- The edges' targets. -/
theorem w1_v3 (c : Dev nD) : W1 m ρ c (Proc.devRef .tc main_v3) = dstK (m ((c : Thread nD τ).loc main_arg1)) := by
  dsimp only [W1, hostOps0]; after_results <;> rfl

/-- The neighbourhood sums of the input features. -/
theorem w1_v13 (c : Dev nD) : W1 m ρ c (Proc.devRef .tc main_v13) = aggK (m ((c : Thread nD τ).loc main_arg1)) (m ((c : Thread nD τ).loc main_arg0)) := by
  dsimp only [W1, hostOps0]; after_results <;> rfl

/-- The first bias as a row. -/
theorem w1_v14 (c : Dev nD) : W1 m ρ c (Proc.devRef .tc main_v14) = shapeCast S1x48 (m ((c : Thread nD τ).loc main_arg3)) Facts₀.shapeCasts_S48_S1x48 := by
  dsimp only [W1, hostOps0]; after_results <;> rfl

/-- The first layer of the argument arrays. -/
def H1 (c : Dev nD) : S100000x48.Idx → Ideal .f32 :=
  Cert.Gnn.convA (M := 100000) (m ((c : Thread nD τ).loc main_arg0)) (aggK (m ((c : Thread nD τ).loc main_arg1)) (m ((c : Thread nD τ).loc main_arg0))) (m ((c : Thread nD τ).loc main_arg2)) (m ((c : Thread nD τ).loc main_arg4))
    (fun q => (m ((c : Thread nD τ).loc main_arg3) : S48.Idx → Ideal .f32) (ix1 q))

/-- Region 0 leaves the first layer in its output array. -/
theorem w2_v15 (c : Dev nD) : W2 m ρ c (Proc.devRef .tc main_v15) = H1 m c := by
  refine (W2_arr m ρ c 5).trans ((final_r0 (V1 m ρ) c).trans ?_)
  show Cert.Gnn.convA (M := 100000) (W1 m ρ c (Proc.devRef .tc main_arg0)) (W1 m ρ c (Proc.devRef .tc main_v13))
      (W1 m ρ c (Proc.devRef .tc main_arg2)) (W1 m ρ c (Proc.devRef .tc main_arg4))
      (fun q => (W1 m ρ c (Proc.devRef .tc main_v14) : S1x48.Idx → Ideal .f32) (ix2 (0 : Fin 1) q)) = _
  rw [w1_arg0, w1_v13, w1_arg2, w1_arg4, w1_v14]
  unfold H1
  rw [row_of_vec]

/-! ## After region 0: every buffer it does not own is as the first stretch left it -/

/-- Region 0 does not write the sources. -/
theorem w2_v1 (c : Dev nD) : W2 m ρ c (Proc.devRef .tc main_v1) = srcK (m ((c : Thread nD τ).loc main_arg1)) :=
  (W2_of_ne m ρ c main_v1 (by decide)).trans (w1_v1 m ρ c)

/-- Region 0 does not write the targets. -/
theorem w2_v3 (c : Dev nD) : W2 m ρ c (Proc.devRef .tc main_v3) = dstK (m ((c : Thread nD τ).loc main_arg1)) :=
  (W2_of_ne m ρ c main_v3 (by decide)).trans (w1_v3 m ρ c)

/-- Region 0 does not write argument 5. -/
theorem w2_arg5 (c : Dev nD) : W2 m ρ c (Proc.devRef .tc main_arg5) = m ((c : Thread nD τ).loc main_arg5) :=
  (W2_of_ne m ρ c main_arg5 (by decide)).trans (w1_arg5 m ρ c)

/-- Region 0 does not write argument 6. -/
theorem w2_arg6 (c : Dev nD) : W2 m ρ c (Proc.devRef .tc main_arg6) = m ((c : Thread nD τ).loc main_arg6) :=
  (W2_of_ne m ρ c main_arg6 (by decide)).trans (w1_arg6 m ρ c)

/-- Region 0 does not write argument 7. -/
theorem w2_arg7 (c : Dev nD) : W2 m ρ c (Proc.devRef .tc main_arg7) = m ((c : Thread nD τ).loc main_arg7) :=
  (W2_of_ne m ρ c main_arg7 (by decide)).trans (w1_arg7 m ρ c)

/-! ## After the second stretch of host operations -/

/-- The second stretch does not write the sources. -/
theorem w3_v1 (c : Dev nD) : W3 m ρ c (Proc.devRef .tc main_v1) = srcK (m ((c : Thread nD τ).loc main_arg1)) := by
  dsimp only [W3, hostOps1]; after_results <;> exact w2_v1 m ρ c

/-- The second stretch does not write the targets. -/
theorem w3_v3 (c : Dev nD) : W3 m ρ c (Proc.devRef .tc main_v3) = dstK (m ((c : Thread nD τ).loc main_arg1)) := by
  dsimp only [W3, hostOps1]; after_results <;> exact w2_v3 m ρ c

/-- The second stretch does not write the first layer. -/
theorem w3_v15 (c : Dev nD) : W3 m ρ c (Proc.devRef .tc main_v15) = H1 m c := by
  dsimp only [W3, hostOps1]; after_results <;> exact w2_v15 m ρ c

/-- The second stretch does not write argument 5. -/
theorem w3_arg5 (c : Dev nD) : W3 m ρ c (Proc.devRef .tc main_arg5) = m ((c : Thread nD τ).loc main_arg5) := by
  dsimp only [W3, hostOps1]; after_results <;> exact w2_arg5 m ρ c

/-- The second stretch does not write argument 7. -/
theorem w3_arg7 (c : Dev nD) : W3 m ρ c (Proc.devRef .tc main_arg7) = m ((c : Thread nD τ).loc main_arg7) := by
  dsimp only [W3, hostOps1]; after_results <;> exact w2_arg7 m ρ c

/-- The neighbourhood sums of the first layer. -/
theorem w3_v25 (c : Dev nD) : W3 m ρ c (Proc.devRef .tc main_v25) = aggK (m ((c : Thread nD τ).loc main_arg1)) (H1 m c) := by
  dsimp only [W3, hostOps1]; after_results
  rw [w2_v1, w2_v3, w2_v15]
  rfl

/-- The second bias as a row. -/
theorem w3_v26 (c : Dev nD) : W3 m ρ c (Proc.devRef .tc main_v26) = shapeCast S1x48 (m ((c : Thread nD τ).loc main_arg6)) Facts₀.shapeCasts_S48_S1x48 := by
  dsimp only [W3, hostOps1]; after_results
  rw [w2_arg6]
  rfl

/-- The second layer of the argument arrays. -/
def H2 (c : Dev nD) : S100000x48.Idx → Ideal .f32 :=
  Cert.Gnn.convA (M := 100000) (H1 m c) (aggK (m ((c : Thread nD τ).loc main_arg1)) (H1 m c)) (m ((c : Thread nD τ).loc main_arg5)) (m ((c : Thread nD τ).loc main_arg7))
    (fun q => (m ((c : Thread nD τ).loc main_arg6) : S48.Idx → Ideal .f32) (ix1 q))

/-- Region 1 leaves the second layer in its output array. -/
theorem w4_v27 (c : Dev nD) : W4 m ρ c (Proc.devRef .tc main_v27) = H2 m c := by
  refine (W4_arr m ρ c 5).trans ((final_r1 (V3 m ρ) c).trans ?_)
  show Cert.Gnn.convA (M := 100000) (W3 m ρ c (Proc.devRef .tc main_v15)) (W3 m ρ c (Proc.devRef .tc main_v25))
      (W3 m ρ c (Proc.devRef .tc main_arg5)) (W3 m ρ c (Proc.devRef .tc main_arg7))
      (fun q => (W3 m ρ c (Proc.devRef .tc main_v26) : S1x48.Idx → Ideal .f32) (ix2 (0 : Fin 1) q)) = _
  rw [w3_v15, w3_v25, w3_arg5, w3_arg7, w3_v26]
  unfold H2
  rw [row_of_vec]

/-! ## After region 1, and after the third stretch of host operations

The later arguments are read back from the END of the run, where no segment has written them. -/

/-- Region 1 does not write the sources. -/
theorem w4_v1 (c : Dev nD) : W4 m ρ c (Proc.devRef .tc main_v1) = srcK (m ((c : Thread nD τ).loc main_arg1)) :=
  (W4_of_ne m ρ c main_v1 (by decide)).trans (w3_v1 m ρ c)

/-- Region 1 does not write the targets. -/
theorem w4_v3 (c : Dev nD) : W4 m ρ c (Proc.devRef .tc main_v3) = dstK (m ((c : Thread nD τ).loc main_arg1)) :=
  (W4_of_ne m ρ c main_v3 (by decide)).trans (w3_v3 m ρ c)

/-- Region 2 reads argument 8 through an input window and leaves it as it found it. -/
theorem w5_arg8 (c : Dev nD) : W5 m ρ c (Proc.devRef .tc main_arg8) = m ((c : Thread nD τ).loc main_arg8) :=
  ((W6_arr m ρ c 2).trans (((dat2 (V5 m ρ) c).arrAt_in 2 rfl _).trans (A_eq2 (V5 m ρ) c 2))).symm.trans (W6_main_arg8 m ρ c)

/-- Region 2 does not write argument 9. -/
theorem w5_arg9 (c : Dev nD) : W5 m ρ c (Proc.devRef .tc main_arg9) = m ((c : Thread nD τ).loc main_arg9) :=
  (W6_of_ne m ρ c main_arg9 (by decide)).symm.trans (W6_main_arg9 m ρ c)

/-- Region 2 reads argument 10 through an input window and leaves it as it found it. -/
theorem w5_arg10 (c : Dev nD) : W5 m ρ c (Proc.devRef .tc main_arg10) = m ((c : Thread nD τ).loc main_arg10) :=
  ((W6_arr m ρ c 4).trans (((dat2 (V5 m ρ) c).arrAt_in 4 rfl _).trans (A_eq2 (V5 m ρ) c 4))).symm.trans (W6_main_arg10 m ρ c)

/-- Region 2 reads argument 11 through an input window and leaves it as it found it. -/
theorem w5_arg11 (c : Dev nD) : W5 m ρ c (Proc.devRef .tc main_arg11) = m ((c : Thread nD τ).loc main_arg11) :=
  ((W6_arr m ρ c 5).trans (((dat2 (V5 m ρ) c).arrAt_in 5 rfl _).trans (A_eq2 (V5 m ρ) c 5))).symm.trans (W6_main_arg11 m ρ c)

/-- Region 2 does not write argument 12. -/
theorem w5_arg12 (c : Dev nD) : W5 m ρ c (Proc.devRef .tc main_arg12) = m ((c : Thread nD τ).loc main_arg12) :=
  (W6_of_ne m ρ c main_arg12 (by decide)).symm.trans (W6_main_arg12 m ρ c)

/-- Region 2 reads argument 13 through an input window and leaves it as it found it. -/
theorem w5_arg13 (c : Dev nD) : W5 m ρ c (Proc.devRef .tc main_arg13) = m ((c : Thread nD τ).loc main_arg13) :=
  ((W6_arr m ρ c 7).trans (((dat2 (V5 m ρ) c).arrAt_in 7 rfl _).trans (A_eq2 (V5 m ρ) c 7))).symm.trans (W6_main_arg13 m ρ c)

/-- Region 2 does not write argument 14. -/
theorem w5_arg14 (c : Dev nD) : W5 m ρ c (Proc.devRef .tc main_arg14) = m ((c : Thread nD τ).loc main_arg14) :=
  (W6_of_ne m ρ c main_arg14 (by decide)).symm.trans (W6_main_arg14 m ρ c)

/-- The third stretch does not write argument 9. -/
theorem w4_arg9 (c : Dev nD) : W4 m ρ c (Proc.devRef .tc main_arg9) = m ((c : Thread nD τ).loc main_arg9) := by
  refine Eq.trans (Eq.symm ?_) (w5_arg9 m ρ c)
  dsimp only [W5, hostOps2]; after_results <;> rfl

/-- The third stretch does not write argument 12. -/
theorem w4_arg12 (c : Dev nD) : W4 m ρ c (Proc.devRef .tc main_arg12) = m ((c : Thread nD τ).loc main_arg12) := by
  refine Eq.trans (Eq.symm ?_) (w5_arg12 m ρ c)
  dsimp only [W5, hostOps2]; after_results <;> rfl

/-- The third stretch does not write argument 14. -/
theorem w4_arg14 (c : Dev nD) : W4 m ρ c (Proc.devRef .tc main_arg14) = m ((c : Thread nD τ).loc main_arg14) := by
  refine Eq.trans (Eq.symm ?_) (w5_arg14 m ρ c)
  dsimp only [W5, hostOps2]; after_results <;> rfl

/-- The third stretch does not write the second layer. -/
theorem w5_v27 (c : Dev nD) : W5 m ρ c (Proc.devRef .tc main_v27) = H2 m c := by
  dsimp only [W5, hostOps2]; after_results <;> exact w4_v27 m ρ c

/-- The neighbourhood sums of the second layer. -/
theorem w5_v37 (c : Dev nD) : W5 m ρ c (Proc.devRef .tc main_v37) = aggK (m ((c : Thread nD τ).loc main_arg1)) (H2 m c) := by
  dsimp only [W5, hostOps2]; after_results
  rw [w4_v1, w4_v3, w4_v27]
  rfl

/-- The third bias as a row. -/
theorem w5_v38 (c : Dev nD) : W5 m ρ c (Proc.devRef .tc main_v38) = shapeCast S1x48 (m ((c : Thread nD τ).loc main_arg9)) Facts₀.shapeCasts_S48_S1x48 := by
  dsimp only [W5, hostOps2]; after_results
  rw [w4_arg9]
  rfl

/-- The hidden map's bias as a row. -/
theorem w5_v39 (c : Dev nD) : W5 m ρ c (Proc.devRef .tc main_v39) = shapeCast S1x128 (m ((c : Thread nD τ).loc main_arg12)) Facts₀.shapeCasts_S128_S1x128 := by
  dsimp only [W5, hostOps2]; after_results
  rw [w4_arg12]
  rfl

/-- The output map's bias as a row. -/
theorem w5_v40 (c : Dev nD) : W5 m ρ c (Proc.devRef .tc main_v40) = shapeCast S1x1 (m ((c : Thread nD τ).loc main_arg14)) Facts₀.shapeCasts_S1_S1x1 := by
  dsimp only [W5, hostOps2]; after_results
  rw [w4_arg14]
  rfl

/-! ## The result -/

/-- The network of the argument arrays. -/
def netK (c : Dev nD) : S100000x1.Idx → Ideal .f32 :=
  Cert.Gnn.net (M := 100000) (aggK (m ((c : Thread nD τ).loc main_arg1))) (m ((c : Thread nD τ).loc main_arg0))
    (m ((c : Thread nD τ).loc main_arg2)) (m ((c : Thread nD τ).loc main_arg4)) (fun q => (m ((c : Thread nD τ).loc main_arg3) : S48.Idx → Ideal .f32) (ix1 q))
    (m ((c : Thread nD τ).loc main_arg5)) (m ((c : Thread nD τ).loc main_arg7)) (fun q => (m ((c : Thread nD τ).loc main_arg6) : S48.Idx → Ideal .f32) (ix1 q))
    (m ((c : Thread nD τ).loc main_arg8)) (m ((c : Thread nD τ).loc main_arg10)) (fun q => (m ((c : Thread nD τ).loc main_arg9) : S48.Idx → Ideal .f32) (ix1 q))
    (m ((c : Thread nD τ).loc main_arg11)) (fun k => (m ((c : Thread nD τ).loc main_arg12) : S128.Idx → Ideal .f32) (ix1 k))
    (m ((c : Thread nD τ).loc main_arg13)) (fun q => (m ((c : Thread nD τ).loc main_arg14) : S1.Idx → Ideal .f32) (ix1 q))

/-- Region 2 leaves the network of the argument arrays in the result buffer. -/
theorem result (c : Dev nD) : W6 m ρ c (Proc.devRef .tc main_v41) = netK m c := by
  refine (W6_arr m ρ c 9).trans ((final_r2 (V5 m ρ) c).trans ?_)
  show Cert.Gnn.headA (M := 100000) (W5 m ρ c (Proc.devRef .tc main_v27)) (W5 m ρ c (Proc.devRef .tc main_v37))
      (W5 m ρ c (Proc.devRef .tc main_arg8)) (W5 m ρ c (Proc.devRef .tc main_arg10))
      (fun q => (W5 m ρ c (Proc.devRef .tc main_v38) : S1x48.Idx → Ideal .f32) (ix2 (0 : Fin 1) q))
      (W5 m ρ c (Proc.devRef .tc main_arg11))
      (fun k => (W5 m ρ c (Proc.devRef .tc main_v39) : S1x128.Idx → Ideal .f32) (ix2 (0 : Fin 1) k))
      (W5 m ρ c (Proc.devRef .tc main_arg13))
      (fun q => (W5 m ρ c (Proc.devRef .tc main_v40) : S1x1.Idx → Ideal .f32) (ix2 (0 : Fin 1) q)) = _
  rw [w5_v27, w5_v37, w5_arg8, w5_arg10, w5_v38, w5_arg11, w5_v39, w5_arg13, w5_v40]
  unfold netK Cert.Gnn.net H2 H1
  rw [row_of_vec, row_of_vec, row_of_vec]

end Cert.Gnn.Ker

end
-- ==== Proof.RefNet.lean ====
/-
  The reference program is the network of the specification.

  The reference is a plain array program: three graph-convolution layers
      out = (agg(h) · Wr + b) + h · Wk,
  an affine map to 128 hidden units clipped below at zero, an affine map to one output, and the logistic
  function spelt 1 / (1 + e⁻ˣ). Its stages have been read back, one operation at a time, as functions of the
  program's arguments. This file composes those readings: each layer, as a whole array, is the specification's
  layer (the only algebra is the regrouping (x + y) + z = (x + z) + y of three extended reals), the three
  neighbourhood sums are one and the same operation applied to three different feature arrays, and the output
  head read at an entry is the specification's head at that entry.

  The neighbourhood sum (a gather along the edges' sources followed by a scatter-add into the edges' targets) is
  never opened: it only has to be the SAME function of the feature array in all three layers.
-/
import proofs.«155833_j14998025797672_1_alg».proof.Proof.Gen.ReferenceIdeal.Read
import proofs.«155833_j14998025797672_1_alg».proof.Proof.Spec
import proofs.«155833_j14998025797672_1_alg».proof.Proof.LibDot

noncomputable section

namespace Cert.Gnn.Ref

open Cert.ReferenceIdeal Cert.ReferenceIdeal.Read Idealize.ShloMosaic Idealize.ShloMosaic.ValueIdx

/-- the neighbourhood sum as the reference spells it: rows of `h` gathered along the edges' sources (negative indices wrapped), scatter-added into the edges' targets from a zero array -/
def aggR (e : (⟨S2x1600000, .i32⟩ : BufTy).Contents (Elt Ideal)) (h : (⟨S100000x48, .f32⟩ : BufTy).Contents (Elt Ideal)) :
    (⟨S100000x48, .f32⟩ : BufTy).Contents (Elt Ideal) :=
  Host.scatterAdd (F := Ideal) (φ := .f32) scatter_S100000x48_S1600000x1_S1600000x48_1_0_0_1 (val_main_v11 (F := Ideal)) (val_main_v12 (F := Ideal) e)
    (Host.gather gather_S100000x48_S1600000x1_S1600000x48_1_0_n_n_0_1_148 h (val_main_v9 (F := Ideal) e))

/-! ### The three matrix products contract the left operand's columns with the right operand's rows -/

theorem plain48 : LibDot.Plain dot_S100000x48_S48x48_S100000x48_1_0_0_1_n_n :=
  ⟨rfl, rfl, lhs_main_v14_0, lhs_main_v14_1, rhs_main_v14_0, rhs_main_v14_1⟩

theorem plain128 : LibDot.Plain dot_S100000x48_S48x128_S100000x128_1_0_0_1_n_n :=
  ⟨rfl, rfl, lhs_main_v52_0, lhs_main_v52_1, rhs_main_v52_0, rhs_main_v52_1⟩

theorem plain1 : LibDot.Plain dot_S100000x128_S128x1_S100000x1_1_0_0_1_n_n :=
  ⟨rfl, rfl, lhs_main_v57_0, lhs_main_v57_1, rhs_main_v57_0, rhs_main_v57_1⟩

/-- A product of node features with a 48 × 48 weight matrix, at entry (p, q): Σₖ y(p,k) · W(k,q). -/
theorem dot48_ix2 (y : (⟨S100000x48, .f32⟩ : BufTy).Contents (Elt Ideal)) (W : (⟨S48x48, .f32⟩ : BufTy).Contents (Elt Ideal)) (p : Fin 100000) (q : Fin 48) :
    val_main_v18 (F := Ideal) y W (ix2 p q) = ∑ k : Fin 48, y (ix2 p k) * W (ix2 k q) :=
  LibDot.dotGeneral_ix2 plain48 none y W p q

/-- A bias row spread over all the nodes, at entry (p, q): b(q). -/
theorem bias48_ix2 (b : (⟨S48, .f32⟩ : BufTy).Contents (Elt Ideal)) (p : Fin 100000) (q : Fin 48) :
    val_main_v16 (F := Ideal) b (ix2 p q) = b (ix1 q) := by
  rw [val_main_v16_apply, val_main_v15_apply]
  exact congrArg b (funext fun a => by match a with | ⟨0, _⟩ => rfl)

/-- One layer as the reference groups it, (a · Wr + b) + y · Wk, is the specification's layer as a whole array. -/
theorem layer (y a : (⟨S100000x48, .f32⟩ : BufTy).Contents (Elt Ideal)) (Wr Wk : (⟨S48x48, .f32⟩ : BufTy).Contents (Elt Ideal)) (b : (⟨S48, .f32⟩ : BufTy).Contents (Elt Ideal)) :
    addf (F := Ideal) (φ := .f32) (addf (F := Ideal) (φ := .f32) (val_main_v18 (F := Ideal) a Wr) (val_main_v16 (F := Ideal) b)) (val_main_v18 (F := Ideal) y Wk)
      = convA y a Wr Wk (fun q => b (ix1 q)) := by
  funext i
  obtain ⟨p, q, rfl⟩ : ∃ (p : Fin 100000) (q : Fin 48), i = ix2 p q := ⟨i 0, i 1, eq_ix2 i⟩
  rw [addf_apply, addf_apply, dot48_ix2, dot48_ix2, bias48_ix2]
  exact conv_regroup y a Wr Wk (fun q => b (ix1 q)) p q

/-! ### The three neighbourhood sums are one operation

The second and third layers spell the wrapped source indices, the target indices and the zero array again,
with the same operations on the same edge list; they are the first layer's, so each neighbourhood sum is
`aggR` of the features it is fed. -/

theorem src1 (e : (⟨S2x1600000, .i32⟩ : BufTy).Contents (Elt Ideal)) : val_main_v25 (F := Ideal) e = val_main_v9 (F := Ideal) e := rfl
theorem src2 (e : (⟨S2x1600000, .i32⟩ : BufTy).Contents (Elt Ideal)) : val_main_v41 (F := Ideal) e = val_main_v9 (F := Ideal) e := rfl
theorem dst1 (e : (⟨S2x1600000, .i32⟩ : BufTy).Contents (Elt Ideal)) : val_main_v28 (F := Ideal) e = val_main_v12 (F := Ideal) e := rfl
theorem dst2 (e : (⟨S2x1600000, .i32⟩ : BufTy).Contents (Elt Ideal)) : val_main_v44 (F := Ideal) e = val_main_v12 (F := Ideal) e := rfl
theorem zero1 : val_main_v27 (F := Ideal) = val_main_v11 (F := Ideal) := rfl
theorem zero2 : val_main_v43 (F := Ideal) = val_main_v11 (F := Ideal) := rfl

/-! ### The three layers -/

/-- The first layer's output is the specification's layer of the input features. -/
theorem h1_eq (x0 : (⟨S100000x48, .f32⟩ : BufTy).Contents (Elt Ideal)) (x1 : (⟨S2x1600000, .i32⟩ : BufTy).Contents (Elt Ideal)) (x2 : (⟨S48x48, .f32⟩ : BufTy).Contents (Elt Ideal)) (x3 : (⟨S48, .f32⟩ : BufTy).Contents (Elt Ideal)) (x4 : (⟨S48x48, .f32⟩ : BufTy).Contents (Elt Ideal)) :
    val_main_v19 (F := Ideal) x0 x1 x2 x3 x4 = convA x0 (aggR x1 x0) x2 x4 (fun q => x3 (ix1 q)) :=
  layer x0 (aggR x1 x0) x2 x4 x3

/-- The second layer's output is the specification's layer of the first layer's output. -/
theorem h2_eq (x0 : (⟨S100000x48, .f32⟩ : BufTy).Contents (Elt Ideal)) (x1 : (⟨S2x1600000, .i32⟩ : BufTy).Contents (Elt Ideal)) (x2 : (⟨S48x48, .f32⟩ : BufTy).Contents (Elt Ideal)) (x3 : (⟨S48, .f32⟩ : BufTy).Contents (Elt Ideal)) (x4 x5 : (⟨S48x48, .f32⟩ : BufTy).Contents (Elt Ideal)) (x6 : (⟨S48, .f32⟩ : BufTy).Contents (Elt Ideal)) (x7 : (⟨S48x48, .f32⟩ : BufTy).Contents (Elt Ideal)) :
    val_main_v35 (F := Ideal) x0 x1 x2 x3 x4 x5 x6 x7
      = convA (val_main_v19 (F := Ideal) x0 x1 x2 x3 x4) (aggR x1 (val_main_v19 (F := Ideal) x0 x1 x2 x3 x4)) x5 x7 (fun q => x6 (ix1 q)) := by
  have e : val_main_v29 (F := Ideal) x0 x1 x2 x3 x4 = aggR x1 (val_main_v19 (F := Ideal) x0 x1 x2 x3 x4) := by
    unfold val_main_v29 val_main_v26 aggR
    rw [src1, dst1, zero1]
  rw [← e]
  exact layer (val_main_v19 (F := Ideal) x0 x1 x2 x3 x4) (val_main_v29 (F := Ideal) x0 x1 x2 x3 x4) x5 x7 x6

/-- The third layer's output is the specification's layer of the second layer's output. -/
theorem h3_eq (x0 : (⟨S100000x48, .f32⟩ : BufTy).Contents (Elt Ideal)) (x1 : (⟨S2x1600000, .i32⟩ : BufTy).Contents (Elt Ideal)) (x2 : (⟨S48x48, .f32⟩ : BufTy).Contents (Elt Ideal)) (x3 : (⟨S48, .f32⟩ : BufTy).Contents (Elt Ideal)) (x4 x5 : (⟨S48x48, .f32⟩ : BufTy).Contents (Elt Ideal)) (x6 : (⟨S48, .f32⟩ : BufTy).Contents (Elt Ideal)) (x7 x8 : (⟨S48x48, .f32⟩ : BufTy).Contents (Elt Ideal)) (x9 : (⟨S48, .f32⟩ : BufTy).Contents (Elt Ideal)) (x10 : (⟨S48x48, .f32⟩ : BufTy).Contents (Elt Ideal)) :
    val_main_v51 (F := Ideal) x0 x1 x2 x3 x4 x5 x6 x7 x8 x9 x10
      = convA (val_main_v35 (F := Ideal) x0 x1 x2 x3 x4 x5 x6 x7) (aggR x1 (val_main_v35 (F := Ideal) x0 x1 x2 x3 x4 x5 x6 x7)) x8 x10 (fun q => x9 (ix1 q)) := by
  have e : val_main_v45 (F := Ideal) x0 x1 x2 x3 x4 x5 x6 x7 = aggR x1 (val_main_v35 (F := Ideal) x0 x1 x2 x3 x4 x5 x6 x7) := by
    unfold val_main_v45 val_main_v42 aggR
    rw [src2, dst2, zero2]
  rw [← e]
  exact layer (val_main_v35 (F := Ideal) x0 x1 x2 x3 x4 x5 x6 x7) (val_main_v45 (F := Ideal) x0 x1 x2 x3 x4 x5 x6 x7) x8 x10 x9

/-! ### The output head -/

/-- The hidden bias row spread over all the nodes, at entry (p, k): b(k). -/
theorem bias128_ix2 (b : (⟨S128, .f32⟩ : BufTy).Contents (Elt Ideal)) (p : Fin 100000) (k : Fin 128) :
    val_main_v54 (F := Ideal) b (ix2 p k) = b (ix1 k) := by
  rw [val_main_v54_apply, val_main_v53_apply]
  exact congrArg b (funext fun a => by match a with | ⟨0, _⟩ => rfl)

/-- The output bias spread over all the nodes, at entry (p, q): b(q); the one output column is column 0. -/
theorem bias1_ix2 (b : (⟨S1, .f32⟩ : BufTy).Contents (Elt Ideal)) (p : Fin 100000) (q : Fin 1) :
    val_main_v59 (F := Ideal) b (ix2 p q) = b (ix1 q) := by
  rw [val_main_v59_apply, val_main_v58_apply]
  exact congrArg b (funext fun a => Fin.ext (by
    match a with
    | ⟨0, _⟩ => exact (Nat.lt_one_iff.mp q.isLt).symm))

/-- A hidden unit at entry (p, k): row p of the third layer's output through `m0W`, plus the bias, clipped below at the zero word. -/
theorem hid_eq (y : (⟨S100000x48, .f32⟩ : BufTy).Contents (Elt Ideal)) (W : (⟨S48x128, .f32⟩ : BufTy).Contents (Elt Ideal)) (b : (⟨S128, .f32⟩ : BufTy).Contents (Elt Ideal)) (p : Fin 100000) (k : Fin 128) :
    maximumf (F := Ideal) (φ := .f32)
        (addf (F := Ideal) (φ := .f32) (Host.dotGeneral (F := Ideal) (φ₁ := .f32) (φ₂ := .f32) dot_S100000x48_S48x128_S100000x128_1_0_0_1_n_n none y W) (val_main_v54 (F := Ideal) b))
        (val_main_call0_v0 (F := Ideal)) (ix2 p k)
      = max (∑ j : Fin 48, y (ix2 p j) * W (ix2 j k) + b (ix1 k)) (Ideal.ofBits .f32 0x00000000#32) := by
  rw [maximumf_apply, addf_apply, LibDot.dotGeneral_ix2 plain128, bias128_ix2, val_main_call0_v0_apply, val_main_call0_cst_apply]
  rfl

/-- The output at entry (p, q): 1 / (1 + e⁻ˣ) of the hidden row through `m1W` plus the bias, which is the logistic function. -/
theorem out_eq (hd : (⟨S100000x128, .f32⟩ : BufTy).Contents (Elt Ideal)) (W : (⟨S128x1, .f32⟩ : BufTy).Contents (Elt Ideal)) (b : (⟨S1, .f32⟩ : BufTy).Contents (Elt Ideal)) (p : Fin 100000) (q : Fin 1) :
    Host.divf (F := Ideal) (φ := .f32) (val_main_v65 (F := Ideal))
        (addf (F := Ideal) (φ := .f32) (val_main_v63 (F := Ideal))
          (Host.exp (F := Ideal) (φ := .f32) (Host.negf (F := Ideal) (φ := .f32)
            (addf (F := Ideal) (φ := .f32) (Host.dotGeneral (F := Ideal) (φ₁ := .f32) (φ₂ := .f32) dot_S100000x128_S128x1_S100000x1_1_0_0_1_n_n none hd W) (val_main_v59 (F := Ideal) b)))))
        (ix2 p q)
      = Ideal.logistic (∑ k : Fin 128, hd (ix2 p k) * W (ix2 k q) + b (ix1 q)) := by
  show Ideal.div (val_main_v65 (F := Ideal) (ix2 p q))
      (val_main_v63 (F := Ideal) (ix2 p q)
        + Ideal.exp (-(Host.dotGeneral (F := Ideal) (φ₁ := .f32) (φ₂ := .f32) dot_S100000x128_S128x1_S100000x1_1_0_0_1_n_n none hd W (ix2 p q) + val_main_v59 (F := Ideal) b (ix2 p q)))) = _
  rw [LibDot.dotGeneral_ix2 plain1, bias1_ix2, val_main_v65_apply, val_main_cst_8_apply, val_main_v63_apply, val_main_cst_7_apply]
  exact logistic_spelt _

/-- The reference program's result is the specification's network, fed the reference's own neighbourhood sum:
    entry (p, q) of the result is the logistic head over the hidden units of node p, each hidden unit reads row p of
    the third layer's output, and the three layers' outputs are the specification's layers as whole arrays. -/
theorem ref_is_net (x0 : (⟨S100000x48, .f32⟩ : BufTy).Contents (Elt Ideal)) (x1 : (⟨S2x1600000, .i32⟩ : BufTy).Contents (Elt Ideal)) (x2 : (⟨S48x48, .f32⟩ : BufTy).Contents (Elt Ideal)) (x3 : (⟨S48, .f32⟩ : BufTy).Contents (Elt Ideal)) (x4 x5 : (⟨S48x48, .f32⟩ : BufTy).Contents (Elt Ideal)) (x6 : (⟨S48, .f32⟩ : BufTy).Contents (Elt Ideal)) (x7 x8 : (⟨S48x48, .f32⟩ : BufTy).Contents (Elt Ideal)) (x9 : (⟨S48, .f32⟩ : BufTy).Contents (Elt Ideal)) (x10 : (⟨S48x48, .f32⟩ : BufTy).Contents (Elt Ideal)) (x11 : (⟨S48x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) :
    val_main_v66 (F := Ideal) x0 x1 x2 x3 x4 x5 x6 x7 x8 x9 x10 x11 x12 x13 x14
      = Cert.Gnn.net (aggR x1) x0 x2 x4 (fun q => x3 (ix1 q)) x5 x7 (fun q => x6 (ix1 q)) x8 x10 (fun q => x9 (ix1 q))
          x11 (fun k => x12 (ix1 k)) x13 (fun q => x14 (ix1 q)) := by
  funext i
  obtain ⟨p, q, rfl⟩ : ∃ (p : Fin 100000) (q : Fin 1), i = ix2 p q := ⟨i 0, i 1, eq_ix2 i⟩
  refine (out_eq (val_main_v56 (F := Ideal) x0 x1 x2 x3 x4 x5 x6 x7 x8 x9 x10 x11 x12) x13 x14 p q).trans ?_
  have hh : ∀ k : Fin 128, val_main_v56 (F := Ideal) x0 x1 x2 x3 x4 x5 x6 x7 x8 x9 x10 x11 x12 (ix2 p k)
      = max (∑ j : Fin 48, val_main_v51 (F := Ideal) x0 x1 x2 x3 x4 x5 x6 x7 x8 x9 x10 (ix2 p j) * x11 (ix2 j k) + x12 (ix1 k)) (Ideal.ofBits .f32 0x00000000#32) :=
    fun k => hid_eq (val_main_v51 (F := Ideal) x0 x1 x2 x3 x4 x5 x6 x7 x8 x9 x10) x11 x12 p k
  simp only [hh]
  rw [h3_eq, h2_eq, h1_eq]
  rfl

end Cert.Gnn.Ref

end
-- ==== Proof.Bridge.lean ====
/-
  The two programs' neighbourhood sums are one function.

  Each program spells the neighbourhood sum in its own vocabulary: its own names for the shapes [2, E], [E], [E, 1],
  [N, 48], [E, 48], its own gather and scatter dimension records, its own side conditions. The shapes are the same
  literal extents, the two gather records and the two scatter records have the same dimension lists (their remaining
  field is a proof), and the operations applied are the same, in the same order, on the same edge array: row 0 of the
  edges (negative entries wrapped by N) is gathered along, row 1 is scattered along, into a zero array. So the two
  terms are the same term, and the gather and the scatter-add are never opened.
-/
import proofs.«155833_j14998025797672_1_alg».proof.Proof.RefNet
import proofs.«155833_j14998025797672_1_alg».proof.Proof.Agg

noncomputable section

namespace Cert.Gnn

open Idealize.ShloMosaic

/-- The two gather records list the same dimensions. -/
theorem gather_rec_eq :
    Cert.ReferenceIdeal.gather_S100000x48_S1600000x1_S1600000x48_1_0_n_n_0_1_148
      = Cert.KernelIdeal.gather_S100000x48_S1600000x1_S1600000x48_1_0_n_n_0_1_148 := rfl

/-- The two scatter records list the same dimensions. -/
theorem scatter_rec_eq :
    Cert.ReferenceIdeal.scatter_S100000x48_S1600000x1_S1600000x48_1_0_0_1
      = Cert.KernelIdeal.scatter_S100000x48_S1600000x1_S1600000x48_1_0_0_1 := rfl

/-- The reference's row 0 of the edge array is the edges' sources. -/
theorem src_eq (e : (⟨Cert.ReferenceIdeal.S2x1600000, .i32⟩ : Idealize.ShloMosaic.BufTy).Contents (Idealize.ShloMosaic.Elt Idealize.ShloMosaic.Ideal)) :
    Cert.ReferenceIdeal.Read.val_main_v1 (F := Ideal) e = Ker.srcK e := rfl

/-- The reference's row 1 of the edge array is the edges' targets. -/
theorem dst_eq (e : (⟨Cert.ReferenceIdeal.S2x1600000, .i32⟩ : Idealize.ShloMosaic.BufTy).Contents (Idealize.ShloMosaic.Elt Idealize.ShloMosaic.Ideal)) :
    Cert.ReferenceIdeal.Read.val_main_v3 (F := Ideal) e = Ker.dstK e := rfl

theorem aggR_eq_aggK (e : (⟨Cert.ReferenceIdeal.S2x1600000, .i32⟩ : Idealize.ShloMosaic.BufTy).Contents (Idealize.ShloMosaic.Elt Idealize.ShloMosaic.Ideal)) (h : (⟨Cert.ReferenceIdeal.S100000x48, .f32⟩ : Idealize.ShloMosaic.BufTy).Contents (Idealize.ShloMosaic.Elt Idealize.ShloMosaic.Ideal)) : Cert.Gnn.Ref.aggR e h = Cert.Gnn.Ker.aggK e h := by
  unfold Ref.aggR Ker.aggK Ker.aggSD
  unfold Cert.ReferenceIdeal.Read.val_main_v12 Cert.ReferenceIdeal.Read.val_main_v11 Cert.ReferenceIdeal.Read.val_main_cst
    Cert.ReferenceIdeal.Read.val_main_v9 Cert.ReferenceIdeal.Read.val_main_v8 Cert.ReferenceIdeal.Read.val_main_v7
    Cert.ReferenceIdeal.Read.val_main_v6 Cert.ReferenceIdeal.Read.val_main_c_0 Cert.ReferenceIdeal.Read.val_main_v5
    Cert.ReferenceIdeal.Read.val_main_v4 Cert.ReferenceIdeal.Read.val_main_c
  rw [src_eq, dst_eq, gather_rec_eq, scatter_rec_eq]

end Cert.Gnn

end
-- ==== Proof.lean ====
/-
  The kernel and its reference compute one network.

  Both programs are a graph neural network on 100000 nodes and 1600000 edges: three graph-convolution layers
  `(Σₖ a(p,k)·Wr(k,q) + Σₖ h(p,k)·Wk(k,q)) + b(q)`, where `a` is the neighbourhood sum of `h` along the edges, then
  a `48 → 128` affine map clipped below at zero, a `128 → 1` affine map and the logistic function. The kernel
  program evaluates each layer in blocks of 5000 rows inside a kernel region, with the neighbourhood sums computed by
  host operations between the regions; the reference evaluates whole arrays. On the extended reals a narrowing of the
  float format is the identity and a matrix product is the plain sum over the contracted index, so a block of a layer
  is the same rows of the layer of the whole arrays; the two programs group the three summands of a layer
  differently, which is the regrouping `(x + y) + z = (x + z) + y`; the kernel's one logistic operation and the
  reference's `1 / (1 + e⁻ˣ)` are one function; and the neighbourhood sum is the same gather and scatter-add in both,
  never opened. No finiteness of the inputs is used.

  The frames are the programs' own runs with the results dropped; the idealization rewrote no operation, so there is
  nothing to preserve.
-/
import proofs.«155833_j14998025797672_1_alg».proof.Defs
import proofs.«155833_j14998025797672_1_alg».proof.Proof.Gen.Kernel
import proofs.«155833_j14998025797672_1_alg».proof.Proof.Gen.Kernel.Frame
import proofs.«155833_j14998025797672_1_alg».proof.Proof.Gen.KernelIdeal
import proofs.«155833_j14998025797672_1_alg».proof.Proof.Gen.KernelIdeal.Frame
import proofs.«155833_j14998025797672_1_alg».proof.Proof.Gen.ReferenceIdeal
import proofs.«155833_j14998025797672_1_alg».proof.Proof.Gen.ReferenceIdeal.Run
import proofs.«155833_j14998025797672_1_alg».proof.Proof.Gen.ReferenceIdeal.Read
import proofs.«155833_j14998025797672_1_alg».proof.Proof.Gen.Pre_finite_inputs
import proofs.«155833_j14998025797672_1_alg».proof.Proof.KRun
import proofs.«155833_j14998025797672_1_alg».proof.Proof.Walk
import proofs.«155833_j14998025797672_1_alg».proof.Proof.RefNet
import proofs.«155833_j14998025797672_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel program's result buffer ends at the network of its argument
    arrays and the reference's result at the network of its own; the arguments agree and the two neighbourhood sums
    are one function, so the results are equal entry by entry. -/
theorem algebraic : Cert.algebraic_KernelIdeal_ReferenceIdeal := by
  intro m ρ m' ρ' _ hagree
  refine ⟨fun c => Cert.Gnn.Ker.netK m c, ?_, ?_⟩
  · exact (θ_run Cert.KernelIdeal.defs _ _).mono
      (fun r h c => ⟨(h c).1.trans (Cert.Gnn.Ker.result m ρ c), (h c).2⟩) (Cert.Gnn.Ker.run_W6 (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v66_eq, Cert.Gnn.Ref.ref_is_net,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    unfold Cert.Gnn.Ker.netK
    rw [show Cert.Gnn.Ref.aggR (m ((c.tc : Thread Cert.KernelIdeal.nD Cert.KernelIdeal.τ).loc Cert.KernelIdeal.main_arg1))
        = Cert.Gnn.Ker.aggK (m ((c.tc : Thread Cert.KernelIdeal.nD Cert.KernelIdeal.τ).loc Cert.KernelIdeal.main_arg1))
      from funext fun h => Cert.Gnn.aggR_eq_aggK _ h]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
